-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x6 : Shape := ⟨2, ![8192, 6]⟩
abbrev S8192 : Shape := ⟨1, ![8192]⟩
abbrev S_ : Shape := ⟨0, ![]⟩

class Facts : Prop where
  bcast_S_S8192x6 : S_.BroadcastsInDim S8192x6 (![] : Fin 0 → Fin S8192x6.rank)
  reducesTo_S8192x6_S_d0_1 : S8192x6.ReducesTo [0, 1] S_
  h_S_ : 0 < S_.numel

variable [Facts]

def fn {F : FTy → Type} [FloatOps F] (main_arg0 : FVec F S8192x6 .f32) (main_arg1 : IVec S8192 32) : IVec S_ 1 :=
  let main_v0 : FVec F S8192x6 .f32 := Host.absf main_arg0
  let main_cst : FVec F S_ .f32 := constant S_ .f32 0x7F800000#32
  let main_v1 : FVec F S8192x6 .f32 := broadcastInDim S8192x6 ![] bcast_S_S8192x6 main_cst
  let main_v2 : IVec S8192x6 1 := cmpf .olt main_v0 main_v1
  let main_c : IVec S_ 1 := constantI S_ 1 1#1
  let main_v3 : IVec S_ 1 := (fun x v => Host.reduce IntOp.andi x v reducesTo_S8192x6_S_d0_1 h_S_) main_v2 main_c
  main_v3
-- ==== Kernel.lean ====
abbrev S8192x6 : Shape := ⟨2, ![8192, 6]⟩
abbrev S8192 : Shape := ⟨1, ![8192]⟩
abbrev S3 : Shape := ⟨1, ![3]⟩
abbrev S_ : Shape := ⟨0, ![]⟩
abbrev S3x1 : Shape := ⟨2, ![3, 1]⟩
abbrev S8192x3 : Shape := ⟨2, ![8192, 3]⟩
abbrev S3x8192 : Shape := ⟨2, ![3, 8192]⟩
abbrev S8192x1 : Shape := ⟨2, ![8192, 1]⟩
abbrev S1x8192 : Shape := ⟨2, ![1, 8192]⟩
abbrev S8192x8192 : Shape := ⟨2, ![8192, 8192]⟩
abbrev S256x3 : Shape := ⟨2, ![256, 3]⟩
abbrev S256x1 : Shape := ⟨2, ![256, 1]⟩
abbrev S256x8192 : Shape := ⟨2, ![256, 8192]⟩
abbrev S1x1024 : Shape := ⟨2, ![1, 1024]⟩
abbrev S256x1024 : Shape := ⟨2, ![256, 1024]⟩
abbrev S256 : Shape := ⟨1, ![256]⟩

abbrev nBuf : Space → Nat
  | .hbm => 16
  | .vmem => 10
  | .smem => 0
  | _ => 0

abbrev bufTy : (tb : Table) → Fin (tcTables nBuf tb) → BufTy
  | .hbm, ⟨0, _⟩ => ⟨S8192x6, .f32⟩
  | .hbm, ⟨1, _⟩ => ⟨S8192, .i32⟩
  | .hbm, ⟨2, _⟩ => ⟨S3, .i32⟩
  | .hbm, ⟨3, _⟩ => ⟨S_, .i32⟩
  | .hbm, ⟨4, _⟩ => ⟨S3, .i32⟩
  | .hbm, ⟨5, _⟩ => ⟨S3, .i1⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S3x1, .i32⟩
  | .hbm, ⟨11, _⟩ => ⟨S8192x3, .f32⟩
  | .hbm, ⟨12, _⟩ => ⟨S3x8192, .f32⟩
  | .hbm, ⟨13, _⟩ => ⟨S8192x1, .i32⟩
  | .hbm, ⟨14, _⟩ => ⟨S1x8192, .i32⟩
  | .hbm, ⟨15, _⟩ => ⟨S8192x8192, .f32⟩
  | .local _ .vmem, ⟨0, _⟩ => ⟨S256x3, .f32⟩
  | .local _ .vmem, ⟨1, _⟩ => ⟨S256x3, .f32⟩
  | .local _ .vmem, ⟨2, _⟩ => ⟨S3x8192, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S256x8192, .f32⟩
  | .local _ .vmem, ⟨7, _⟩ => ⟨S256x8192, .f32⟩
  | .local _ .vmem, ⟨8, _⟩ => ⟨S256x8192, .f32⟩
  | .local _ .vmem, ⟨9, _⟩ => ⟨S256x1, .f32⟩
  | _, _ => ⟨S8192x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  v19
def k0_off1 (k0_t1 : Fin k0_t1_loop.trips) : Fin 2 → Nat :=
  let c0_17 : Index := 0#32
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  let v20 : BitVec 32 := v19
  let v21 : Index := Scalar.indexCast v20
  ![0, v21.toNat]
def k0_off2 (k0_t1 : Fin k0_t1_loop.trips) : Fin 2 → Nat :=
  let c1_18 : Index := 1#32
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  let v20 : BitVec 32 := v19
  let v24 : Index := Scalar.indexCast v20
  ![1, v24.toNat]
def k0_off3 (k0_t1 : Fin k0_t1_loop.trips) : Fin 2 → Nat :=
  let c2_19 : Index := 2#32
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  let v20 : BitVec 32 := v19
  let v27 : Index := Scalar.indexCast v20
  ![2, v27.toNat]
def k0_off4 (k0_t1 : Fin k0_t1_loop.trips) : Fin 2 → Nat :=
  let c0_22 : Index := 0#32
  let c0_i32_16 : BitVec 32 := 0#32
  let c0_i32 : BitVec 32 := 0#32
  let c1_i32 : BitVec 32 := 1#32
  let arg8 : BitVec 32 := Scf.iv c0_i32 c1_i32 k0_t1
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  let v20 : BitVec 32 := v19
  let v50 : Index := Scalar.indexCast v20
  ![0, v50.toNat]
@[reducible] def k0_t2_loop : Scf.Loop 32 :=
  let c0_i32_11 : BitVec 32 := 0#32
  let c8_i32_12 : BitVec 32 := 8#32
  let v16 : BitVec 32 := Scalar.addi c0_i32_11 c8_i32_12
  let c1_i32_13 : BitVec 32 := 1#32
  ⟨c0_i32_11, v16, c1_i32_13⟩
def k0_mult2 (k0_t2 : Fin k0_t2_loop.trips) : BitVec 32 :=
  let c0_i32_16 : BitVec 32 := 0#32
  let c0_i32_11 : BitVec 32 := 0#32
  let c1_i32_13 : BitVec 32 := 1#32
  let arg8 : BitVec 32 := Scf.iv c0_i32_11 c1_i32_13 k0_t2
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  v19
def k0_off5 (k0_t2 : Fin k0_t2_loop.trips) : Fin 2 → Nat :=
  let c0_17 : Index := 0#32
  let c0_i32_16 : BitVec 32 := 0#32
  let c0_i32_11 : BitVec 32 := 0#32
  let c1_i32_13 : BitVec 32 := 1#32
  let arg8 : BitVec 32 := Scf.iv c0_i32_11 c1_i32_13 k0_t2
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  let v20 : BitVec 32 := v19
  let v21 : Index := Scalar.indexCast v20
  ![0, v21.toNat]
def k0_off6 (k0_t2 : Fin k0_t2_loop.trips) : Fin 2 → Nat :=
  let c0_18 : Index := 0#32
  let c0_i32_16 : BitVec 32 := 0#32
  let c0_i32_11 : BitVec 32 := 0#32
  let c1_i32_13 : BitVec 32 := 1#32
  let arg8 : BitVec 32 := Scf.iv c0_i32_11 c1_i32_13 k0_t2
  let c1_i32_15 : BitVec 32 := 1#32
  let v17 : BitVec 32 := Scalar.muli arg8 c1_i32_15
  let v18 : BitVec 32 := Scalar.addi c0_i32_16 v17
  let c1024_i32 : BitVec 32 := 1024#32
  let v19 : BitVec 32 := Scalar.muli v18 c1024_i32
  let v20 : BitVec 32 := v19
  let v25 : Index := Scalar.indexCast v20
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3 : S_.BroadcastsInDim S3 (![] : Fin 0 → Fin S3.rank)
  bcast_S3_S3x1_0 : S3.BroadcastsInDim S3x1 (![0] : Fin 1 → Fin S3x1.rank)
  transposes_S8192x3_S3x8192_1_0 : S8192x3.Transposes [1, 0] S3x8192
  shapeCasts_S8192_S8192x1 : S8192.ShapeCasts S8192x1
  shapeCasts_S8192_S1x8192 : S8192.ShapeCasts S1x8192
  inb_S256x3_S256x1_0_0 : ∀ a, (![0, 0] : Fin 2 → Nat) a + S256x1.size a ≤ S256x3.size a
  h_S256x1 : 0 < S256x1.numel
  shapeCasts_S256x1_S256x1 : S256x1.ShapeCasts S256x1
  inb_S256x3_S256x1_0_1 : ∀ a, (![0, 1] : Fin 2 → Nat) a + S256x1.size a ≤ S256x3.size a
  inb_S256x3_S256x1_0_2 : ∀ a, (![0, 2] : Fin 2 → Nat) a + S256x1.size a ≤ S256x3.size a
  inb_S256x1_S256x1_0_0 : ∀ a, (![0, 0] : Fin 2 → Nat) a + S256x1.size a ≤ S256x1.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  gather_S8192x6_S3x1_S8192x3_0_1_n_n_1_1_81921_wf : GatherDims.WF S8192x6 S3x1 S8192x3 [0] [1] [] [1] [] 1 ![8192, 1]
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024.size a ≤ S3x8192.size a
  k0_off2_inb : ∀ k0_t1 : Fin k0_t1_loop.trips, ∀ a, (k0_off2 k0_t1) a + S1x1024.size a ≤ S3x8192.size a
  k0_off3_inb : ∀ k0_t1 : Fin k0_t1_loop.trips, ∀ a, (k0_off3 k0_t1) a + S1x1024.size a ≤ S3x8192.size a
  k0_off4_inb : ∀ k0_t1 : Fin k0_t1_loop.trips, ∀ a, (k0_off4 k0_t1) a + S256x1024.size a ≤ S256x8192.size a
  k0_t2_ok : k0_t2_loop.OK
  k0_mult2_dvd : ∀ k0_t2 : Fin k0_t2_loop.trips, 1024 ∣ (k0_mult2 k0_t2).toNat
  k0_off5_inb : ∀ k0_t2 : Fin k0_t2_loop.trips, ∀ a, (k0_off5 k0_t2) a + S256x1024.size a ≤ S256x8192.size a
  k0_off6_inb : ∀ k0_t2 : Fin k0_t2_loop.trips, ∀ a, (k0_off6 k0_t2) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S8192x3.size a
  hwx0_0 : ∀ i : grid0.Coords, EltTy.bits .f32 = 32 ∨ (Rect.block (s := S8192x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S8192x8192.size a
  hwx0_4 : ∀ i : grid0.Coords, EltTy.bits .f32 = 32 ∨ (Rect.block (s := S8192x8192) S256x8192.size (cc0_transform_4 i) (hinb0_4 i)).WholeWords (EltTy.packing .f32)

variable [Facts₀]

def gather_S8192x6_S3x1_S8192x3_0_1_n_n_1_1_81921 : GatherDims S8192x6 S3x1 S8192x3 where
  offsetDims := [0]
  collapsedSliceDims := [1]
  operandBatchingDims := []
  startIndicesBatchingDims := []
  startIndexMap := [1]
  indexVectorDim := 1
  sliceSizes := ![8192, 1]
  wf := gather_S8192x6_S3x1_S8192x3_0_1_n_n_1_1_81921_wf

abbrev win0_0 : Pipeline.Window sig grid0 :=
  Pipeline.Window.ofSpec (Memref.whole main_v6) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x6 : Shape := ⟨2, ![8192, 6]⟩
abbrev S8192 : Shape := ⟨1, ![8192]⟩
abbrev S3 : Shape := ⟨1, ![3]⟩
abbrev S_ : Shape := ⟨0, ![]⟩
abbrev S3x1 : Shape := ⟨2, ![3, 1]⟩
abbrev S8192x3 : Shape := ⟨2, ![8192, 3]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x6, .f32⟩
  | .hbm, ⟨1, _⟩ => ⟨S8192, .i32⟩
  | .hbm, ⟨2, _⟩ => ⟨S3, .i32⟩
  | .hbm, ⟨3, _⟩ => ⟨S_, .i32⟩
  | .hbm, ⟨4, _⟩ => ⟨S3, .i32⟩
  | .hbm, ⟨5, _⟩ => ⟨S3, .i1⟩
  | .hbm, ⟨6, _⟩ => ⟨S_, .i32⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S3x1, .i32⟩
  | .hbm, ⟨11, _⟩ => ⟨S8192x3, .f32⟩
  | .hbm, ⟨12, _⟩ => ⟨S8192x3, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S3x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .i1⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S8192x8192, .i1⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S8192x8192, .f32⟩
  | _, _ => ⟨S8192x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_call0_v0 : Ref sig .tc := ⟨.hbm, 52, rfl⟩
abbrev main_call0_v1 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  gather_S8192x6_S3x1_S8192x3_0_1_n_n_1_1_81921_wf : GatherDims.WF S8192x6 S3x1 S8192x3 [0] [1] [] [1] [] 1 ![8192, 1]
  dot_S8192x3_S3x8192_S8192x8192_1_0_0_1_n_n_wf : DotDims.WF S8192x3 S3x8192 S8192x8192 [1] [0] [0] [1] [] []

variable [Facts₀]

def gather_S8192x6_S3x1_S8192x3_0_1_n_n_1_1_81921 : GatherDims S8192x6 S3x1 S8192x3 where
  offsetDims := [0]
  collapsedSliceDims := [1]
  operandBatchingDims := []
  startIndicesBatchingDims := []
  startIndexMap := [1]
  indexVectorDim := 1
  sliceSizes := ![8192, 1]
  wf := gather_S8192x6_S3x1_S8192x3_0_1_n_n_1_1_81921_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.LibWholeMemrefLoads.lean ====
/-
  Reading a buffer through a whole memref. A load of the whole buffer reads its contents; a load of a unit-stride
  box at offsets (o, k) reads the contents at (o + row, k + column); after one store of the whole buffer a load
  reads the stored value whatever was there before; one store of the whole buffer leaves the stored value.
-/
import Idealize.ShloMosaic.Lib.Pipeline.FrameBody
import Idealize.ShloMosaic.Lib.Pipeline.Value
import Idealize.ShloMosaic.Lib.WholeRead
import Idealize.ShloMosaic.Lib.Exec.Geometry

noncomputable section

namespace Cert.Gated.Loads

open Idealize.ShloMosaic

variable {sig : RefSig} {κ : Kind} {sp : Space} {Val : EltTy → Type} [∀ e, Nonempty (Val e)] {e : EltTy}

/-- A load of the whole buffer reads its contents. -/
theorem whole_load {S : Shape} (M : Memref sig κ sp S e) (hM : M.IsWhole) (X : S.Idx → Val e)
    {off : Fin S.rank → ℕ} (hz : off = fun _ => 0) (inb : ∀ a, off a + S.size a ≤ S.size a) :
    View.readAt Val M.view (Rect.unit off S.size inb).toLoadRect (hM.unread X) = X := by
  rw [View.readAt_eq_ld, hM.read_unread, View.ld_unit_zero hz]

/-- Element x of a unit-stride box at offsets (o, k) of a rank-2 shape is the element (o + x₀, k + x₁). -/
theorem box_idx {d : Fin 2 → ℕ} {off size : Fin 2 → ℕ} (inb : ∀ a, off a + size a ≤ (⟨2, d⟩ : Shape).size a) (o k : ℕ)
    (hoff : off = ![o, k]) (x : (Rect.unit (s := ⟨2, d⟩) off size inb).shape.Idx) (y : (⟨2, d⟩ : Shape).Idx)
    (h0 : (y 0).val = o + (x 0).val) (h1 : (y 1).val = k + (x 1).val) :
    (Rect.unit (s := ⟨2, d⟩) off size inb).toLoadRect.idx x = y := by
  subst hoff
  funext a
  apply Fin.ext
  match a with
  | ⟨0, _⟩ => show o + 1 * (x 0).val = (y 0).val; rw [h0]; omega
  | ⟨1, _⟩ => show k + 1 * (x 1).val = (y 1).val; rw [h1]; omega

/-- A load of a box at offsets (o, k) reads the contents at (o + row, k + column). -/
theorem box_load {d : Fin 2 → ℕ} (M : Memref sig κ sp (⟨2, d⟩ : Shape) e) (hM : M.IsWhole)
    (X : (⟨2, d⟩ : Shape).Idx → Val e) {off size : Fin 2 → ℕ} (inb : ∀ a, off a + size a ≤ (⟨2, d⟩ : Shape).size a)
    (o k : ℕ) (hoff : off = ![o, k]) (x : (Rect.unit (s := ⟨2, d⟩) off size inb).shape.Idx) (y : (⟨2, d⟩ : Shape).Idx)
    (h0 : (y 0).val = o + (x 0).val) (h1 : (y 1).val = k + (x 1).val) :
    View.readAt Val M.view (Rect.unit (s := ⟨2, d⟩) off size inb).toLoadRect (hM.unread X) x = X y :=
  (hM.readAt_unread X _ x).trans (congrArg X (box_idx inb o k hoff x y h0 h1))

/-- One store of the whole buffer leaves the stored value. -/
theorem read_whole_store {S : Shape} (v : View sig κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hz inb y⟩),
    View.canon_unit_zero hz]

/-- After one store of the whole buffer, a load of the whole buffer (as the run names it) reads the stored value. -/
theorem whole_readCov {S : Shape} (v : View sig κ sp S e) {off : Fin S.rank → ℕ} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

/-- After one store of the whole buffer over anything, a load of a box at offsets (o, k) reads the stored value at
    (o + row, k + column). -/
theorem box_load_after_store {d : Fin 2 → ℕ} (v : View sig κ sp (⟨2, d⟩ : Shape) e) {off0 : Fin 2 → ℕ}
    (hz : off0 = fun _ => 0) (inb0 : ∀ a, off0 a + (⟨2, d⟩ : Shape).size a ≤ (⟨2, d⟩ : Shape).size a)
    (w : (⟨2, d⟩ : Shape).Idx → Val e) {off size : Fin 2 → ℕ} (inb : ∀ a, off a + size a ≤ (⟨2, d⟩ : Shape).size a)
    (o k : ℕ) (hoff : off = ![o, k]) (x : (Rect.unit (s := ⟨2, d⟩) off size inb).shape.Idx) (y : (⟨2, d⟩ : Shape).Idx)
    (h0 : (y 0).val = o + (x 0).val) (h1 : (y 1).val = k + (x 1).val) :
    View.readAt Val v (Rect.unit (s := ⟨2, d⟩) off size inb).toLoadRect
      (v.writes Val v.junk [(⟨Rect.unit off0 (⟨2, d⟩ : Shape).size inb0, w⟩ : View.Piece Val (⟨2, d⟩ : Shape) e)]) x = w y := by
  rw [View.readAt_writes_junk_eq_canon, View.canon_unit_zero hz]
  exact congrArg w (box_idx inb o k hoff x y h0 h1)

end Cert.Gated.Loads

end
-- ==== Proof.KRun.lean ====
/-
  The kernel body's run and the value it leaves in the output block, at any float instance.

  One grid point handles a block of 256 rows. The body loads the block's three coordinate columns, zero-fills the
  row-sum column, and makes two passes over the eight column chunks of 1024. The first pass computes a chunk of
  affinities from the coordinate columns and the transposed coordinates, stores it into chunk k of a [256, 8192]
  scratch buffer and adds the chunk's row sums to the row-sum column. The second pass reads chunk k of the scratch,
  scales by the reciprocal of the row sums, masks by the threshold and by label agreement and stores chunk k of the
  output block.

  The scratch buffers hold unknown contents when the body starts, so the pieces the loops store are first shown to be
  the same lists whatever those contents were (`loop1_pieces`, `loop2_pieces`: each trip stores, at the trip's
  offset, a value computed from the trip's loads only — the row-sum column is rewritten whole each trip from the zero
  fill), and the eight chunks tile each buffer (`coverE`, `coverO`). So the output block ends at one function of the
  four input blocks, `outBlk`, and the body's triple is stated with that value (`bodyRun`).
-/
import proofs.«169839_j12945031430844_2_alg».proof.Proof.Gen.Kernel.Frame.Runs
import proofs.«169839_j12945031430844_2_alg».proof.Proof.LibWholeMemrefLoads
import Idealize.ShloMosaic.Lib.Pipeline.Value

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- Column `a` of the coordinate block, as a [256, 1] box. -/
abbrev rX0 : Rect S256x3 := Rect.unit (s := S256x3) ![0, 0] S256x1.size inb_S256x3_S256x1_0_0
abbrev rX1 : Rect S256x3 := Rect.unit (s := S256x3) ![0, 1] S256x1.size inb_S256x3_S256x1_0_1
abbrev rX2 : Rect S256x3 := Rect.unit (s := S256x3) ![0, 2] S256x1.size inb_S256x3_S256x1_0_2
/-- The whole [256, 1] column. -/
abbrev rW : Rect S256x1 := Rect.unit (s := S256x1) ![0, 0] S256x1.size inb_S256x1_S256x1_0_0
/-- Row `a` of the transposed coordinates, chunk `k`: a [1, 1024] box. -/
abbrev rT0 (k : Fin k0_t1_loop.trips) : Rect S3x8192 := Rect.unit (s := S3x8192) (k0_off1 k) S1x1024.size (k0_off1_inb k)
abbrev rT1 (k : Fin k0_t1_loop.trips) : Rect S3x8192 := Rect.unit (s := S3x8192) (k0_off2 k) S1x1024.size (k0_off2_inb k)
abbrev rT2 (k : Fin k0_t1_loop.trips) : Rect S3x8192 := Rect.unit (s := S3x8192) (k0_off3 k) S1x1024.size (k0_off3_inb k)
/-- Chunk `k` of a [256, 8192] buffer, in the first and in the second pass. -/
abbrev rA (k : Fin k0_t1_loop.trips) : Rect S256x8192 := Rect.unit (s := S256x8192) (k0_off4 k) S256x1024.size (k0_off4_inb k)
abbrev rB (k : Fin k0_t2_loop.trips) : Rect S256x8192 := Rect.unit (s := S256x8192) (k0_off5 k) S256x1024.size (k0_off5_inb k)
/-- Chunk `k` of the label row. -/
abbrev rL (k : Fin k0_t2_loop.trips) : Rect S1x8192 := Rect.unit (s := S1x8192) (k0_off6 k) S1x1024.size (k0_off6_inb k)

/-! ## What the two passes compute, free of the buffers' earlier contents -/

/-- Chunk `k` of the affinities: the first pass's stored value, from the three coordinate columns and the
    transposed coordinates. -/
def chunkE (v0 v2 v4 : Vec F S256x1 .f32) (X : Vec F S3x8192 .f32) (k : Fin k0_t1_loop.trips) : FVec F S256x1024 .f32 :=
  k0_pay7 (k0_pay1 v0) (k0_pay2 v2) (k0_pay3 v4) (View.ld X (rT0 k)) (View.ld X (rT1 k)) (View.ld X (rT2 k))

/-- The row sums after chunk `k`, from the row sums `z` before it. -/
def stepS (v0 v2 v4 : Vec F S256x1 .f32) (X : Vec F S3x8192 .f32) (k : Fin k0_t1_loop.trips) (z : Vec F S256x1 .f32) : FVec F S256x1 .f32 :=
  k0_pay8 (k0_pay1 v0) (k0_pay2 v2) (k0_pay3 v4) (View.ld X (rT0 k)) (View.ld X (rT1 k)) (View.ld X (rT2 k)) (View.ld z rW)

/-- The first pass's stores into the affinity buffer, the trips before `n`, last first. -/
def storesE (v0 v2 v4 : Vec F S256x1 .f32) (X : Vec F S3x8192 .f32) : ℕ → List (View.Piece (Elt F) S256x8192 .f32)
  | 0 => []
  | n + 1 => if h : n < k0_t1_loop.trips then ⟨rA ⟨n, h⟩, chunkE v0 v2 v4 X ⟨n, h⟩⟩ :: storesE v0 v2 v4 X n else storesE v0 v2 v4 X n

/-- The row sums after the trips before `n`, from `z`. -/
def sumsS (v0 v2 v4 : Vec F S256x1 .f32) (X : Vec F S3x8192 .f32) (z : Vec F S256x1 .f32) : ℕ → Vec F S256x1 .f32
  | 0 => z
  | n + 1 => if h : n < k0_t1_loop.trips then stepS v0 v2 v4 X ⟨n, h⟩ (sumsS v0 v2 v4 X z n) else sumsS v0 v2 v4 X z n

/-- The second pass's stores into the output block, the trips before `n`, last first: each chunk from the row sums
    `s`, the row labels `l`, the affinity buffer's contents `e` and the label row `b`. -/
def storesO (s : Vec F S256x1 .f32) (l : Vec F S256x1 .i32) (e : Vec F S256x8192 .f32) (b : Vec F S1x8192 .i32) :
    ℕ → List (View.Piece (Elt F) S256x8192 .f32)
  | 0 => []
  | n + 1 => if h : n < k0_t2_loop.trips then ⟨rB ⟨n, h⟩, k0_pay5 s l (View.ld e (rB ⟨n, h⟩)) (View.ld b (rL ⟨n, h⟩))⟩ :: storesO s l e b n
      else storesO s l e b n

/-! ## One trip of each loop, read once -/

theorem trip1_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v0 v2 v4 : Vec F S256x1 .f32) (X2 : BufTy.Contents (Elt F) arg2.view.ty) (k : Fin k0_t1_loop.trips)
    (f6 : BufTy.Contents (Elt F) arg6.view.ty) (f7 : BufTy.Contents (Elt F) arg7.view.ty) :
    tripL_k0_t1 (F := F) Variants.none c none i arg1 harg1 arg2 harg2 arg3 harg3 arg4 harg4 arg5 harg5 arg6 harg6 arg7 harg7 v0 v2 v4 X2 k f6 f7
      = ([⟨rA k, chunkE v0 v2 v4 (arg2.view.read (Elt F) X2) k⟩],
         [⟨rW, stepS v0 v2 v4 (arg2.view.read (Elt F) X2) k (arg7.view.read (Elt F) f7)⟩]) := by
  unfold tripL_k0_t1 trip_k0_t1
  dsimp only
  unfold trip_k0_t1.sl.r
  rfl

theorem trip2_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v11 : Vec F S256x1 .f32) (v14 : Vec F S256x1 .i32) (X4 : BufTy.Contents (Elt F) arg4.view.ty) (X6 : BufTy.Contents (Elt F) arg6.view.ty) (k : Fin k0_t2_loop.trips) :
    tripL_k0_t2 (F := F) Variants.none c none i arg1 harg1 arg2 harg2 arg3 harg3 arg4 harg4 arg5 harg5 arg6 harg6 arg7 harg7 v11 v14 X4 X6 k
      = [⟨rB k, k0_pay5 v11 v14 (View.ld (arg6.view.read (Elt F) X6) (rB k)) (View.ld (arg4.view.read (Elt F) X4) (rL k))⟩] := by
  unfold tripL_k0_t2 trip_k0_t2
  rfl

/-! ## The loops' piece lists are the stores above -/

theorem zero_off : (![0, 0] : Fin S256x1.rank → ℕ) = fun _ => 0 := by
  funext a; match a with | ⟨0, _⟩ => rfl | ⟨1, _⟩ => rfl

/-- After the trips before `n` of the first loop, whatever the two scratch buffers held at its entry: the affinity
    buffer's pieces are the chunks stored so far, and the row-sum buffer reads the sums accumulated so far from what it
    read at entry. -/
theorem loop1_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v0 v2 v4 : Vec F S256x1 .f32) (X2 : BufTy.Contents (Elt F) arg2.view.ty)
    (G6 : BufTy.Contents (Elt F) arg6.view.ty) (G7 : BufTy.Contents (Elt F) arg7.view.ty) :
    ∀ n, n ≤ k0_t1_loop.trips →
      (pb_k0_t1 (F := F) Variants.none c none i arg1 harg1 arg2 harg2 arg3 harg3 arg4 harg4 arg5 harg5 arg6 harg6 arg7 harg7 v0 v2 v4 X2 G6 G7 n).1 = storesE v0 v2 v4 (arg2.view.read (Elt F) X2) n
      ∧ arg7.view.read (Elt F) (arg7.view.writes (Elt F) G7 (pb_k0_t1 (F := F) Variants.none c none i arg1 harg1 arg2 harg2 arg3 harg3 arg4 harg4 arg5 harg5 arg6 harg6 arg7 harg7 v0 v2 v4 X2 G6 G7 n).2)
          = sumsS v0 v2 v4 (arg2.view.read (Elt F) X2) (arg7.view.read (Elt F) G7) n
  | 0, _ => ⟨rfl, rfl⟩
  | n + 1, h => by
    have hn : n < k0_t1_loop.trips := h
    obtain ⟨ih1, ih2⟩ := loop1_pieces c i arg1 harg1 arg2 harg2 arg3 harg3 arg4 harg4 arg5 harg5 arg6 harg6 arg7 harg7 v0 v2 v4 X2 G6 G7 n (Nat.le_of_lt hn)
    have hs : pb_k0_t1 (F := F) Variants.none c none i arg1 harg1 arg2 harg2 arg3 harg3 arg4 harg4 arg5 harg5 arg6 harg6 arg7 harg7 v0 v2 v4 X2 G6 G7 (n + 1) = _ :=
      pb_k0_t1_succ (F := F) Variants.none c none i arg1 harg1 arg2 harg2 arg3 harg3 arg4 harg4 arg5 harg5 arg6 harg6 arg7 harg7 v0 v2 v4 X2 G6 G7 ⟨n, hn⟩
    rw [trip1_pieces] at hs
    rw [hs]
    refine ⟨?_, ?_⟩
    · show _ :: _ = _
      rw [storesE, dif_pos hn]
      exact congrArg _ ih1
    · show arg7.view.read (Elt F) (arg7.view.writes (Elt F) G7 ([_] ++ _)) = _
      rw [View.writes_append]
      refine (Cert.Gated.Loads.read_whole_store (off := ![0, 0]) arg7.view _ zero_off inb_S256x1_S256x1_0_0 _).trans ?_
      rw [sumsS, dif_pos hn]
      exact congrArg _ ih2

/-- The second loop's pieces after the trips before `n` are the output stores above, over what the label row and the
    affinity buffer read. -/
theorem loop2_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v11 : Vec F S256x1 .f32) (v14 : Vec F S256x1 .i32) (X4 : BufTy.Contents (Elt F) arg4.view.ty) (X6 : BufTy.Contents (Elt F) arg6.view.ty) :
    ∀ n, n ≤ k0_t2_loop.trips →
      pb_k0_t2 (F := F) Variants.none c none i arg1 harg1 arg2 harg2 arg3 harg3 arg4 harg4 arg5 harg5 arg6 harg6 arg7 harg7 v11 v14 X4 X6 n
        = storesO v11 v14 (arg6.view.read (Elt F) X6) (arg4.view.read (Elt F) X4) n
  | 0, _ => rfl
  | n + 1, h => by
    have hn : n < k0_t2_loop.trips := h
    have ih := loop2_pieces c i arg1 harg1 arg2 harg2 arg3 harg3 arg4 harg4 arg5 harg5 arg6 harg6 arg7 harg7 v11 v14 X4 X6 n (Nat.le_of_lt hn)
    have hs : pb_k0_t2 (F := F) Variants.none c none i arg1 harg1 arg2 harg2 arg3 harg3 arg4 harg4 arg5 harg5 arg6 harg6 arg7 harg7 v11 v14 X4 X6 (n + 1) = _ :=
      pb_k0_t2_succ (F := F) Variants.none c none i arg1 harg1 arg2 harg2 arg3 harg3 arg4 harg4 arg5 harg5 arg6 harg6 arg7 harg7 v11 v14 X4 X6 ⟨n, hn⟩
    rw [trip2_pieces] at hs
    rw [hs]
    show _ :: _ = _
    rw [storesO, dif_pos hn]
    exact congrArg _ ih

/-- The first pass's eight stores tile the affinity buffer, and the second pass's the output block. -/
theorem coverE (v0 v2 v4 : Vec F S256x1 .f32) (X : Vec F S3x8192 .f32) (y : S256x8192.Idx) :
    ∃ p ∈ storesE v0 v2 v4 X k0_t1_loop.trips, y ∈ p.1.set :=
  View.cover_of_tiledL (storesE v0 v2 v4 X k0_t1_loop.trips) S256x1024.size (by sl_kernel_rfl) y

theorem coverO (s : Vec F S256x1 .f32) (l : Vec F S256x1 .i32) (e : Vec F S256x8192 .f32) (b : Vec F S1x8192 .i32) (y : S256x8192.Idx) :
    ∃ p ∈ storesO s l e b k0_t2_loop.trips, y ∈ p.1.set :=
  View.cover_of_tiledL (storesO s l e b k0_t2_loop.trips) S256x1024.size (by sl_kernel_rfl) y

/-! ## What the body leaves in the output block -/

/-- The output block after the body, as one function of the four input blocks: the canonical contents of the second
    pass's eight stores, each chunk computed from the row sums the first pass accumulated from zero, the row labels,
    the affinities the first pass stored, and the label row. -/
def outBlk (x0 : Vec F S256x3 .f32) (x1 : Vec F S3x8192 .f32) (x2 : Vec F S256x1 .i32) (x3 : Vec F S1x8192 .i32) : Vec F S256x8192 .f32 :=
  View.canon (storesO
    (View.ld (sumsS (View.ld x0 rX0) (View.ld x0 rX1) (View.ld x0 rX2) x1 (k0_pay4 (F := F)) k0_t1_loop.trips) rW)
    (View.ld x2 rW)
    (View.canon (storesE (View.ld x0 rX0) (View.ld x0 rX1) (View.ld x0 rX2) x1 k0_t1_loop.trips))
    x3 k0_t2_loop.trips)

/-- What the second loop's stores leave in the output buffer reads as `outBlk`, whatever the output buffer and the
    affinity scratch held before: the first loop's eight stores tile the scratch, its row-sum stores each rewrite the
    whole column from the zero fill, and the second loop's eight stores tile the output. -/
theorem out_value (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (x0 : Vec F S256x3 .f32) (x1 : Vec F S3x8192 .f32) (x2 : Vec F S256x1 .i32) (x3 : Vec F S1x8192 .i32)
    (f4 : BufTy.Contents (Elt F) arg5.view.ty) (fs0 : BufTy.Contents (Elt F) arg6.view.ty) :
    View.read (Elt F) arg5.view (arg5.view.writes (Elt F) f4
      (pb_k0_t2 (F := F) Variants.none c none i arg1 harg1 arg2 harg2 arg3 harg3 arg4 harg4 arg5 harg5 arg6 harg6 arg7 harg7
        (View.readAt (Elt F) arg7.view rW.toLoadRect (arg7.view.writes (Elt F) arg7.view.junk ((pb_k0_t1 (F := F) Variants.none c none i arg1 harg1 arg2 harg2 arg3 harg3 arg4 harg4 arg5 harg5 arg6 harg6 arg7 harg7 (View.readAt (Elt F) arg1.view rX0.toLoadRect (harg1.unread x0)) (View.readAt (Elt F) arg1.view rX1.toLoadRect (harg1.unread x0)) (View.readAt (Elt F) arg1.view rX2.toLoadRect (harg1.unread x0)) (harg2.unread x1) fs0 (arg7.view.writes (Elt F) arg7.view.junk [⟨rW, k0_pay4⟩]) (Scf.trips k0_t1_loop.lb k0_t1_loop.ub k0_t1_loop.st)).2 ++ [⟨rW, k0_pay4⟩])))
        (View.readAt (Elt F) arg3.view rW.toLoadRect (harg3.unread x2))
        (harg4.unread x3)
        (arg6.view.writes (Elt F) fs0 (pb_k0_t1 (F := F) Variants.none c none i arg1 harg1 arg2 harg2 arg3 harg3 arg4 harg4 arg5 harg5 arg6 harg6 arg7 harg7 (View.readAt (Elt F) arg1.view rX0.toLoadRect (harg1.unread x0)) (View.readAt (Elt F) arg1.view rX1.toLoadRect (harg1.unread x0)) (View.readAt (Elt F) arg1.view rX2.toLoadRect (harg1.unread x0)) (harg2.unread x1) fs0 (arg7.view.writes (Elt F) arg7.view.junk [⟨rW, k0_pay4⟩]) (Scf.trips k0_t1_loop.lb k0_t1_loop.ub k0_t1_loop.st)).1)
        (Scf.trips k0_t2_loop.lb k0_t2_loop.ub k0_t2_loop.st)))
      = outBlk x0 x1 x2 x3 := by
  have hz : arg7.view.read (Elt F) (arg7.view.writes (Elt F) arg7.view.junk [⟨rW, k0_pay4⟩]) = k0_pay4 (F := F) :=
    Cert.Gated.Loads.read_whole_store (off := ![0, 0]) arg7.view _ zero_off inb_S256x1_S256x1_0_0 _
  obtain ⟨h1, h2⟩ := loop1_pieces (F := F) c i arg1 harg1 arg2 harg2 arg3 harg3 arg4 harg4 arg5 harg5 arg6 harg6 arg7 harg7 (View.readAt (Elt F) arg1.view rX0.toLoadRect (harg1.unread x0)) (View.readAt (Elt F) arg1.view rX1.toLoadRect (harg1.unread x0)) (View.readAt (Elt F) arg1.view rX2.toLoadRect (harg1.unread x0)) (harg2.unread x1) fs0 (arg7.view.writes (Elt F) arg7.view.junk [⟨rW, k0_pay4⟩]) (Scf.trips k0_t1_loop.lb k0_t1_loop.ub k0_t1_loop.st)
    (show (Scf.trips k0_t1_loop.lb k0_t1_loop.ub k0_t1_loop.st) ≤ k0_t1_loop.trips from le_refl _)
  rw [loop2_pieces (F := F) c i arg1 harg1 arg2 harg2 arg3 harg3 arg4 harg4 arg5 harg5 arg6 harg6 arg7 harg7 _ _ _ _ (Scf.trips k0_t2_loop.lb k0_t2_loop.ub k0_t2_loop.st) (show (Scf.trips k0_t2_loop.lb k0_t2_loop.ub k0_t2_loop.st) ≤ k0_t2_loop.trips from le_refl _),
    View.read_writes_eq_canon _ _ _ (coverO _ _ _ _)]
  rw [h1, View.read_writes_eq_canon _ _ _ (coverE _ _ _ _), View.readAt_eq_ld arg7.view, View.writes_append, h2, hz]
  simp only [View.readAt_eq_ld, harg1.read_unread, harg2.read_unread, harg3.read_unread, harg4.read_unread]
  rfl

set_option maxHeartbeats 1000000 in
/-- The body on whole staging memrefs — the inputs' at their contents, the output's and the two scratch buffers at
    anything — runs to the continuation holding the inputs as they were, the scratch at some contents, and the output
    block at `outBlk` of the inputs. -/
theorem bodyRun (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (x0 : Vec F S256x3 .f32) (x1 : Vec F S3x8192 .f32) (x2 : Vec F S256x1 .i32) (x3 : Vec F S1x8192 .i32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3) ∗ (∃ d, owns (c : Thread nD τ) arg6 fullShare d) ∗ (∃ d, owns (c : Thread nD τ) arg7 fullShare d)) -∗ K ⟨⟩))
          ⊢ wp frame (wpE (defs₀ (F := F)) Variants.none c none) E (cc0__fused_kernel i arg1 harg1 arg2 harg2 arg3 harg3 arg4 harg4 arg5 harg5 arg6 harg6 arg7 harg7) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_run_names
      exact out_value c i arg1 harg1 arg2 harg2 arg3 harg3 arg4 harg4 arg5 harg5 arg6 harg6 arg7 harg7 x0 x1 x2 x3 f4 fs0

    isplitl [HS0]
    · iexists _, _; isplitr; swap; · iexact HS0
      ipureintro; rfl
    iexists _, _; isplitr; swap; · iexact HS1
    ipureintro; rfl

end Cert.Kernel.GenP

end
-- ==== Proof.KIRun.lean ====
/-
  The kernel body's run and the value it leaves in the output block, at any float instance.

  One grid point handles a block of 256 rows. The body loads the block's three coordinate columns, zero-fills the
  row-sum column, and makes two passes over the eight column chunks of 1024. The first pass computes a chunk of
  affinities from the coordinate columns and the transposed coordinates, stores it into chunk k of a [256, 8192]
  scratch buffer and adds the chunk's row sums to the row-sum column. The second pass reads chunk k of the scratch,
  scales by the reciprocal of the row sums, masks by the threshold and by label agreement and stores chunk k of the
  output block.

  The scratch buffers hold unknown contents when the body starts, so the pieces the loops store are first shown to be
  the same lists whatever those contents were (`loop1_pieces`, `loop2_pieces`: each trip stores, at the trip's
  offset, a value computed from the trip's loads only — the row-sum column is rewritten whole each trip from the zero
  fill), and the eight chunks tile each buffer (`coverE`, `coverO`). So the output block ends at one function of the
  four input blocks, `outBlk`, and the body's triple is stated with that value (`bodyRun`).
-/
import proofs.«169839_j12945031430844_2_alg».proof.Proof.Gen.KernelIdeal.Frame.Runs
import proofs.«169839_j12945031430844_2_alg».proof.Proof.LibWholeMemrefLoads
import Idealize.ShloMosaic.Lib.Pipeline.Value

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- Column `a` of the coordinate block, as a [256, 1] box. -/
abbrev rX0 : Rect S256x3 := Rect.unit (s := S256x3) ![0, 0] S256x1.size inb_S256x3_S256x1_0_0
abbrev rX1 : Rect S256x3 := Rect.unit (s := S256x3) ![0, 1] S256x1.size inb_S256x3_S256x1_0_1
abbrev rX2 : Rect S256x3 := Rect.unit (s := S256x3) ![0, 2] S256x1.size inb_S256x3_S256x1_0_2
/-- The whole [256, 1] column. -/
abbrev rW : Rect S256x1 := Rect.unit (s := S256x1) ![0, 0] S256x1.size inb_S256x1_S256x1_0_0
/-- Row `a` of the transposed coordinates, chunk `k`: a [1, 1024] box. -/
abbrev rT0 (k : Fin k0_t1_loop.trips) : Rect S3x8192 := Rect.unit (s := S3x8192) (k0_off1 k) S1x1024.size (k0_off1_inb k)
abbrev rT1 (k : Fin k0_t1_loop.trips) : Rect S3x8192 := Rect.unit (s := S3x8192) (k0_off2 k) S1x1024.size (k0_off2_inb k)
abbrev rT2 (k : Fin k0_t1_loop.trips) : Rect S3x8192 := Rect.unit (s := S3x8192) (k0_off3 k) S1x1024.size (k0_off3_inb k)
/-- Chunk `k` of a [256, 8192] buffer, in the first and in the second pass. -/
abbrev rA (k : Fin k0_t1_loop.trips) : Rect S256x8192 := Rect.unit (s := S256x8192) (k0_off4 k) S256x1024.size (k0_off4_inb k)
abbrev rB (k : Fin k0_t2_loop.trips) : Rect S256x8192 := Rect.unit (s := S256x8192) (k0_off5 k) S256x1024.size (k0_off5_inb k)
/-- Chunk `k` of the label row. -/
abbrev rL (k : Fin k0_t2_loop.trips) : Rect S1x8192 := Rect.unit (s := S1x8192) (k0_off6 k) S1x1024.size (k0_off6_inb k)

/-! ## What the two passes compute, free of the buffers' earlier contents -/

/-- Chunk `k` of the affinities: the first pass's stored value, from the three coordinate columns and the
    transposed coordinates. -/
def chunkE (v0 v2 v4 : Vec F S256x1 .f32) (X : Vec F S3x8192 .f32) (k : Fin k0_t1_loop.trips) : FVec F S256x1024 .f32 :=
  k0_pay7 (k0_pay1 v0) (k0_pay2 v2) (k0_pay3 v4) (View.ld X (rT0 k)) (View.ld X (rT1 k)) (View.ld X (rT2 k))

/-- The row sums after chunk `k`, from the row sums `z` before it. -/
def stepS (v0 v2 v4 : Vec F S256x1 .f32) (X : Vec F S3x8192 .f32) (k : Fin k0_t1_loop.trips) (z : Vec F S256x1 .f32) : FVec F S256x1 .f32 :=
  k0_pay8 (k0_pay1 v0) (k0_pay2 v2) (k0_pay3 v4) (View.ld X (rT0 k)) (View.ld X (rT1 k)) (View.ld X (rT2 k)) (View.ld z rW)

/-- The first pass's stores into the affinity buffer, the trips before `n`, last first. -/
def storesE (v0 v2 v4 : Vec F S256x1 .f32) (X : Vec F S3x8192 .f32) : ℕ → List (View.Piece (Elt F) S256x8192 .f32)
  | 0 => []
  | n + 1 => if h : n < k0_t1_loop.trips then ⟨rA ⟨n, h⟩, chunkE v0 v2 v4 X ⟨n, h⟩⟩ :: storesE v0 v2 v4 X n else storesE v0 v2 v4 X n

/-- The row sums after the trips before `n`, from `z`. -/
def sumsS (v0 v2 v4 : Vec F S256x1 .f32) (X : Vec F S3x8192 .f32) (z : Vec F S256x1 .f32) : ℕ → Vec F S256x1 .f32
  | 0 => z
  | n + 1 => if h : n < k0_t1_loop.trips then stepS v0 v2 v4 X ⟨n, h⟩ (sumsS v0 v2 v4 X z n) else sumsS v0 v2 v4 X z n

/-- The second pass's stores into the output block, the trips before `n`, last first: each chunk from the row sums
    `s`, the row labels `l`, the affinity buffer's contents `e` and the label row `b`. -/
def storesO (s : Vec F S256x1 .f32) (l : Vec F S256x1 .i32) (e : Vec F S256x8192 .f32) (b : Vec F S1x8192 .i32) :
    ℕ → List (View.Piece (Elt F) S256x8192 .f32)
  | 0 => []
  | n + 1 => if h : n < k0_t2_loop.trips then ⟨rB ⟨n, h⟩, k0_pay5 s l (View.ld e (rB ⟨n, h⟩)) (View.ld b (rL ⟨n, h⟩))⟩ :: storesO s l e b n
      else storesO s l e b n

/-! ## One trip of each loop, read once -/

theorem trip1_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v0 v2 v4 : Vec F S256x1 .f32) (X2 : BufTy.Contents (Elt F) arg2.view.ty) (k : Fin k0_t1_loop.trips)
    (f6 : BufTy.Contents (Elt F) arg6.view.ty) (f7 : BufTy.Contents (Elt F) arg7.view.ty) :
    tripL_k0_t1 (F := F) Variants.none c none i arg1 harg1 arg2 harg2 arg3 harg3 arg4 harg4 arg5 harg5 arg6 harg6 arg7 harg7 v0 v2 v4 X2 k f6 f7
      = ([⟨rA k, chunkE v0 v2 v4 (arg2.view.read (Elt F) X2) k⟩],
         [⟨rW, stepS v0 v2 v4 (arg2.view.read (Elt F) X2) k (arg7.view.read (Elt F) f7)⟩]) := by
  unfold tripL_k0_t1 trip_k0_t1
  dsimp only
  unfold trip_k0_t1.sl.r
  rfl

theorem trip2_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v11 : Vec F S256x1 .f32) (v14 : Vec F S256x1 .i32) (X4 : BufTy.Contents (Elt F) arg4.view.ty) (X6 : BufTy.Contents (Elt F) arg6.view.ty) (k : Fin k0_t2_loop.trips) :
    tripL_k0_t2 (F := F) Variants.none c none i arg1 harg1 arg2 harg2 arg3 harg3 arg4 harg4 arg5 harg5 arg6 harg6 arg7 harg7 v11 v14 X4 X6 k
      = [⟨rB k, k0_pay5 v11 v14 (View.ld (arg6.view.read (Elt F) X6) (rB k)) (View.ld (arg4.view.read (Elt F) X4) (rL k))⟩] := by
  unfold tripL_k0_t2 trip_k0_t2
  rfl

/-! ## The loops' piece lists are the stores above -/

theorem zero_off : (![0, 0] : Fin S256x1.rank → ℕ) = fun _ => 0 := by
  funext a; match a with | ⟨0, _⟩ => rfl | ⟨1, _⟩ => rfl

/-- After the trips before `n` of the first loop, whatever the two scratch buffers held at its entry: the affinity
    buffer's pieces are the chunks stored so far, and the row-sum buffer reads the sums accumulated so far from what it
    read at entry. -/
theorem loop1_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v0 v2 v4 : Vec F S256x1 .f32) (X2 : BufTy.Contents (Elt F) arg2.view.ty)
    (G6 : BufTy.Contents (Elt F) arg6.view.ty) (G7 : BufTy.Contents (Elt F) arg7.view.ty) :
    ∀ n, n ≤ k0_t1_loop.trips →
      (pb_k0_t1 (F := F) Variants.none c none i arg1 harg1 arg2 harg2 arg3 harg3 arg4 harg4 arg5 harg5 arg6 harg6 arg7 harg7 v0 v2 v4 X2 G6 G7 n).1 = storesE v0 v2 v4 (arg2.view.read (Elt F) X2) n
      ∧ arg7.view.read (Elt F) (arg7.view.writes (Elt F) G7 (pb_k0_t1 (F := F) Variants.none c none i arg1 harg1 arg2 harg2 arg3 harg3 arg4 harg4 arg5 harg5 arg6 harg6 arg7 harg7 v0 v2 v4 X2 G6 G7 n).2)
          = sumsS v0 v2 v4 (arg2.view.read (Elt F) X2) (arg7.view.read (Elt F) G7) n
  | 0, _ => ⟨rfl, rfl⟩
  | n + 1, h => by
    have hn : n < k0_t1_loop.trips := h
    obtain ⟨ih1, ih2⟩ := loop1_pieces c i arg1 harg1 arg2 harg2 arg3 harg3 arg4 harg4 arg5 harg5 arg6 harg6 arg7 harg7 v0 v2 v4 X2 G6 G7 n (Nat.le_of_lt hn)
    have hs : pb_k0_t1 (F := F) Variants.none c none i arg1 harg1 arg2 harg2 arg3 harg3 arg4 harg4 arg5 harg5 arg6 harg6 arg7 harg7 v0 v2 v4 X2 G6 G7 (n + 1) = _ :=
      pb_k0_t1_succ (F := F) Variants.none c none i arg1 harg1 arg2 harg2 arg3 harg3 arg4 harg4 arg5 harg5 arg6 harg6 arg7 harg7 v0 v2 v4 X2 G6 G7 ⟨n, hn⟩
    rw [trip1_pieces] at hs
    rw [hs]
    refine ⟨?_, ?_⟩
    · show _ :: _ = _
      rw [storesE, dif_pos hn]
      exact congrArg _ ih1
    · show arg7.view.read (Elt F) (arg7.view.writes (Elt F) G7 ([_] ++ _)) = _
      rw [View.writes_append]
      refine (Cert.Gated.Loads.read_whole_store (off := ![0, 0]) arg7.view _ zero_off inb_S256x1_S256x1_0_0 _).trans ?_
      rw [sumsS, dif_pos hn]
      exact congrArg _ ih2

/-- The second loop's pieces after the trips before `n` are the output stores above, over what the label row and the
    affinity buffer read. -/
theorem loop2_pieces (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (v11 : Vec F S256x1 .f32) (v14 : Vec F S256x1 .i32) (X4 : BufTy.Contents (Elt F) arg4.view.ty) (X6 : BufTy.Contents (Elt F) arg6.view.ty) :
    ∀ n, n ≤ k0_t2_loop.trips →
      pb_k0_t2 (F := F) Variants.none c none i arg1 harg1 arg2 harg2 arg3 harg3 arg4 harg4 arg5 harg5 arg6 harg6 arg7 harg7 v11 v14 X4 X6 n
        = storesO v11 v14 (arg6.view.read (Elt F) X6) (arg4.view.read (Elt F) X4) n
  | 0, _ => rfl
  | n + 1, h => by
    have hn : n < k0_t2_loop.trips := h
    have ih := loop2_pieces c i arg1 harg1 arg2 harg2 arg3 harg3 arg4 harg4 arg5 harg5 arg6 harg6 arg7 harg7 v11 v14 X4 X6 n (Nat.le_of_lt hn)
    have hs : pb_k0_t2 (F := F) Variants.none c none i arg1 harg1 arg2 harg2 arg3 harg3 arg4 harg4 arg5 harg5 arg6 harg6 arg7 harg7 v11 v14 X4 X6 (n + 1) = _ :=
      pb_k0_t2_succ (F := F) Variants.none c none i arg1 harg1 arg2 harg2 arg3 harg3 arg4 harg4 arg5 harg5 arg6 harg6 arg7 harg7 v11 v14 X4 X6 ⟨n, hn⟩
    rw [trip2_pieces] at hs
    rw [hs]
    show _ :: _ = _
    rw [storesO, dif_pos hn]
    exact congrArg _ ih

/-- The first pass's eight stores tile the affinity buffer, and the second pass's the output block. -/
theorem coverE (v0 v2 v4 : Vec F S256x1 .f32) (X : Vec F S3x8192 .f32) (y : S256x8192.Idx) :
    ∃ p ∈ storesE v0 v2 v4 X k0_t1_loop.trips, y ∈ p.1.set :=
  View.cover_of_tiledL (storesE v0 v2 v4 X k0_t1_loop.trips) S256x1024.size (by sl_kernel_rfl) y

theorem coverO (s : Vec F S256x1 .f32) (l : Vec F S256x1 .i32) (e : Vec F S256x8192 .f32) (b : Vec F S1x8192 .i32) (y : S256x8192.Idx) :
    ∃ p ∈ storesO s l e b k0_t2_loop.trips, y ∈ p.1.set :=
  View.cover_of_tiledL (storesO s l e b k0_t2_loop.trips) S256x1024.size (by sl_kernel_rfl) y

/-! ## What the body leaves in the output block -/

/-- The output block after the body, as one function of the four input blocks: the canonical contents of the second
    pass's eight stores, each chunk computed from the row sums the first pass accumulated from zero, the row labels,
    the affinities the first pass stored, and the label row. -/
def outBlk (x0 : Vec F S256x3 .f32) (x1 : Vec F S3x8192 .f32) (x2 : Vec F S256x1 .i32) (x3 : Vec F S1x8192 .i32) : Vec F S256x8192 .f32 :=
  View.canon (storesO
    (View.ld (sumsS (View.ld x0 rX0) (View.ld x0 rX1) (View.ld x0 rX2) x1 (k0_pay4 (F := F)) k0_t1_loop.trips) rW)
    (View.ld x2 rW)
    (View.canon (storesE (View.ld x0 rX0) (View.ld x0 rX1) (View.ld x0 rX2) x1 k0_t1_loop.trips))
    x3 k0_t2_loop.trips)

/-- What the second loop's stores leave in the output buffer reads as `outBlk`, whatever the output buffer and the
    affinity scratch held before: the first loop's eight stores tile the scratch, its row-sum stores each rewrite the
    whole column from the zero fill, and the second loop's eight stores tile the output. -/
theorem out_value (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (x0 : Vec F S256x3 .f32) (x1 : Vec F S3x8192 .f32) (x2 : Vec F S256x1 .i32) (x3 : Vec F S1x8192 .i32)
    (f4 : BufTy.Contents (Elt F) arg5.view.ty) (fs0 : BufTy.Contents (Elt F) arg6.view.ty) :
    View.read (Elt F) arg5.view (arg5.view.writes (Elt F) f4
      (pb_k0_t2 (F := F) Variants.none c none i arg1 harg1 arg2 harg2 arg3 harg3 arg4 harg4 arg5 harg5 arg6 harg6 arg7 harg7
        (View.readAt (Elt F) arg7.view rW.toLoadRect (arg7.view.writes (Elt F) arg7.view.junk ((pb_k0_t1 (F := F) Variants.none c none i arg1 harg1 arg2 harg2 arg3 harg3 arg4 harg4 arg5 harg5 arg6 harg6 arg7 harg7 (View.readAt (Elt F) arg1.view rX0.toLoadRect (harg1.unread x0)) (View.readAt (Elt F) arg1.view rX1.toLoadRect (harg1.unread x0)) (View.readAt (Elt F) arg1.view rX2.toLoadRect (harg1.unread x0)) (harg2.unread x1) fs0 (arg7.view.writes (Elt F) arg7.view.junk [⟨rW, k0_pay4⟩]) (Scf.trips k0_t1_loop.lb k0_t1_loop.ub k0_t1_loop.st)).2 ++ [⟨rW, k0_pay4⟩])))
        (View.readAt (Elt F) arg3.view rW.toLoadRect (harg3.unread x2))
        (harg4.unread x3)
        (arg6.view.writes (Elt F) fs0 (pb_k0_t1 (F := F) Variants.none c none i arg1 harg1 arg2 harg2 arg3 harg3 arg4 harg4 arg5 harg5 arg6 harg6 arg7 harg7 (View.readAt (Elt F) arg1.view rX0.toLoadRect (harg1.unread x0)) (View.readAt (Elt F) arg1.view rX1.toLoadRect (harg1.unread x0)) (View.readAt (Elt F) arg1.view rX2.toLoadRect (harg1.unread x0)) (harg2.unread x1) fs0 (arg7.view.writes (Elt F) arg7.view.junk [⟨rW, k0_pay4⟩]) (Scf.trips k0_t1_loop.lb k0_t1_loop.ub k0_t1_loop.st)).1)
        (Scf.trips k0_t2_loop.lb k0_t2_loop.ub k0_t2_loop.st)))
      = outBlk x0 x1 x2 x3 := by
  have hz : arg7.view.read (Elt F) (arg7.view.writes (Elt F) arg7.view.junk [⟨rW, k0_pay4⟩]) = k0_pay4 (F := F) :=
    Cert.Gated.Loads.read_whole_store (off := ![0, 0]) arg7.view _ zero_off inb_S256x1_S256x1_0_0 _
  obtain ⟨h1, h2⟩ := loop1_pieces (F := F) c i arg1 harg1 arg2 harg2 arg3 harg3 arg4 harg4 arg5 harg5 arg6 harg6 arg7 harg7 (View.readAt (Elt F) arg1.view rX0.toLoadRect (harg1.unread x0)) (View.readAt (Elt F) arg1.view rX1.toLoadRect (harg1.unread x0)) (View.readAt (Elt F) arg1.view rX2.toLoadRect (harg1.unread x0)) (harg2.unread x1) fs0 (arg7.view.writes (Elt F) arg7.view.junk [⟨rW, k0_pay4⟩]) (Scf.trips k0_t1_loop.lb k0_t1_loop.ub k0_t1_loop.st)
    (show (Scf.trips k0_t1_loop.lb k0_t1_loop.ub k0_t1_loop.st) ≤ k0_t1_loop.trips from le_refl _)
  rw [loop2_pieces (F := F) c i arg1 harg1 arg2 harg2 arg3 harg3 arg4 harg4 arg5 harg5 arg6 harg6 arg7 harg7 _ _ _ _ (Scf.trips k0_t2_loop.lb k0_t2_loop.ub k0_t2_loop.st) (show (Scf.trips k0_t2_loop.lb k0_t2_loop.ub k0_t2_loop.st) ≤ k0_t2_loop.trips from le_refl _),
    View.read_writes_eq_canon _ _ _ (coverO _ _ _ _)]
  rw [h1, View.read_writes_eq_canon _ _ _ (coverE _ _ _ _), View.readAt_eq_ld arg7.view, View.writes_append, h2, hz]
  simp only [View.readAt_eq_ld, harg1.read_unread, harg2.read_unread, harg3.read_unread, harg4.read_unread]
  rfl

set_option maxHeartbeats 1000000 in
/-- The body on whole staging memrefs — the inputs' at their contents, the output's and the two scratch buffers at
    anything — runs to the continuation holding the inputs as they were, the scratch at some contents, and the output
    block at `outBlk` of the inputs. -/
theorem bodyRun (c : Dev nD) (i : grid0.Coords) (arg1 : Memref sig .tc .vmem S256x3 .f32) (harg1 : arg1.IsWhole) (arg2 : Memref sig .tc .vmem S3x8192 .f32) (harg2 : arg2.IsWhole) (arg3 : Memref sig .tc .vmem S256x1 .i32) (harg3 : arg3.IsWhole) (arg4 : Memref sig .tc .vmem S1x8192 .i32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x1 .f32) (harg7 : arg7.IsWhole)
    (x0 : Vec F S256x3 .f32) (x1 : Vec F S3x8192 .f32) (x2 : Vec F S256x1 .i32) (x3 : Vec F S1x8192 .i32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3) ∗ (∃ d, owns (c : Thread nD τ) arg6 fullShare d) ∗ (∃ d, owns (c : Thread nD τ) arg7 fullShare d)) -∗ K ⟨⟩))
          ⊢ wp frame (wpE (defs₀ (F := F)) Variants.none c none) E (cc0__fused_kernel i arg1 harg1 arg2 harg2 arg3 harg3 arg4 harg4 arg5 harg5 arg6 harg6 arg7 harg7) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_run_names
      exact out_value c i arg1 harg1 arg2 harg2 arg3 harg3 arg4 harg4 arg5 harg5 arg6 harg6 arg7 harg7 x0 x1 x2 x3 f4 fs0

    isplitl [HS0]
    · iexists _, _; isplitr; swap; · iexact HS0
      ipureintro; rfl
    iexists _, _; isplitr; swap; · iexact HS1
    ipureintro; rfl

end Cert.KernelIdeal.GenP

end
-- ==== Proof.LibAfterAppend.lean ====
/-
  Folding a list of host operations over a valuation, one stretch after another.

  `StableHlo.after ops W` folds each operation's result into the valuation `W` in order; folding a concatenation
  is folding the first stretch and then the second over what it leaves. This lets a long program be read in
  stretches, each against an arbitrary starting valuation.
-/
import Idealize.ShloMosaic.Lib.StableHlo.Run

namespace Cert.LibAfterAppend

open Idealize.ShloMosaic Idealize.ShloMosaic.StableHlo

/-- Folding two stretches of operations one after the other is folding their concatenation. -/
theorem after_concat {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => exact ih _

/-- A list cut at `k`: folding it is folding the first `k` operations, then the rest. -/
theorem after_take_drop {τ : Topo} {sig : RefSig} {Val : EltTy → Type} (k : Nat) (l : List (HloOp τ sig Val)) (W : Valuation τ sig Val) :
    after l W = after (l.drop k) (after (l.take k) W) := by
  rw [← after_concat, List.take_append_drop]

end Cert.LibAfterAppend
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«169839_j12945031430844_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«169839_j12945031430844_2_alg».proof.Proof.LibSegmentRows
import proofs.«169839_j12945031430844_2_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.RefRun.lean ====
/-
  The reference program's run, read back.

  The reference is a straight line of host array operations: fifty of its own and the three of the selection
  it calls at the end.  Its first ten operations build the index column [0, 1, 2] and gather the three coordinate
  columns out of the six-column argument; the rest computes, from those coordinates X and the labels b,

      q r      = 0 + Σ_k X r k · X r k,
      d (r,c)  = (q r + q c) - 2 · Σ_k X r k · X c k,
      e (r,c)  = exp (exp ((-1/2 · max d 0) / (1/4))),
      w (r,c)  = e (r,c) / (0 + Σ_c e (r,c)),

  and keeps w where it exceeds the threshold and the labels agree, writing 0 elsewhere.  Every weakly fair
  execution terminates with the result buffer at that composed term of the two arguments, and the arguments
  unchanged.
-/
import proofs.«169839_j12945031430844_2_alg».proof.Proof.Gen.ReferenceIdeal
import proofs.«169839_j12945031430844_2_alg».proof.Proof.LibAfterAppend
import proofs.«169839_j12945031430844_2_alg».proof.Proof.LibHostReads
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

/-! ## The operations -/

section Ops

variable {F : FTy → Type} [FloatOps F]

/-- The reference's own fifty operations, in order. -/
abbrev opsMain : List (HloOp τ sig (Elt F)) :=
  [
    StableHlo.nullary main_c (fun i => lit0 (S3.rowMajor i)),
    StableHlo.nullary main_c_0 (constantI S_ 32 0#32),
    StableHlo.unary main_c_0 main_v0 (broadcastInDim S3 ![] bcast_S_S3 : (⟨S_, .i32⟩ : BufTy).Contents (Elt F) → (⟨S3, .i32⟩ : BufTy).Contents (Elt F)),
    StableHlo.binary main_c main_v0 main_v1 (cmpi .slt : (⟨S3, .i32⟩ : BufTy).Contents (Elt F) → (⟨S3, .i32⟩ : BufTy).Contents (Elt F) → (⟨S3, .i1⟩ : BufTy).Contents (Elt F)),
    StableHlo.nullary main_c_1 (constantI S_ 32 6#32),
    StableHlo.unary main_c_1 main_v2 (broadcastInDim S3 ![] bcast_S_S3 : (⟨S_, .i32⟩ : BufTy).Contents (Elt F) → (⟨S3, .i32⟩ : BufTy).Contents (Elt F)),
    StableHlo.binary main_c main_v2 main_v3 (addi : (⟨S3, .i32⟩ : BufTy).Contents (Elt F) → (⟨S3, .i32⟩ : BufTy).Contents (Elt F) → (⟨S3, .i32⟩ : BufTy).Contents (Elt F)),
    StableHlo.ternary main_v1 main_v3 main_c main_v4 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v4 main_v5 (broadcastInDim S3x1 ![0] bcast_S3_S3x1_0 : (⟨S3, .i32⟩ : BufTy).Contents (Elt F) → (⟨S3x1, .i32⟩ : BufTy).Contents (Elt F)),
    StableHlo.binary main_arg0 main_v5 main_v6 ((fun x i => Host.gather gather_S8192x6_S3x1_S8192x3_0_1_n_n_1_1_81921 x i) : (⟨S8192x6, .f32⟩ : BufTy).Contents (Elt F) → (⟨S3x1, .i32⟩ : BufTy).Contents (Elt F) → (⟨S8192x3, .f32⟩ : BufTy).Contents (Elt F)),
    StableHlo.binary main_v6 main_v6 main_v7 (mulf : (⟨S8192x3, .f32⟩ : BufTy).Contents (Elt F) → (⟨S8192x3, .f32⟩ : BufTy).Contents (Elt F) → (⟨S8192x3, .f32⟩ : BufTy).Contents (Elt F)),
    StableHlo.nullary main_cst (constant S_ .f32 0x00000000#32),
    StableHlo.binary main_v7 main_cst main_v8 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    StableHlo.unary main_v8 main_v9 (broadcastInDim S8192x1 ![0] bcast_S8192_S8192x1_0 : (⟨S8192, .f32⟩ : BufTy).Contents (Elt F) → (⟨S8192x1, .f32⟩ : BufTy).Contents (Elt F)),
    StableHlo.unary main_v8 main_v10 (broadcastInDim S1x8192 ![1] bcast_S8192_S1x8192_1 : (⟨S8192, .f32⟩ : BufTy).Contents (Elt F) → (⟨S1x8192, .f32⟩ : BufTy).Contents (Elt F)),
    StableHlo.unary main_v9 main_v11 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v10 main_v12 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v11 main_v12 main_v13 (addf : (⟨S8192x8192, .f32⟩ : BufTy).Contents (Elt F) → (⟨S8192x8192, .f32⟩ : BufTy).Contents (Elt F) → (⟨S8192x8192, .f32⟩ : BufTy).Contents (Elt F)),
    StableHlo.unary main_v6 main_v14 ((transpose S3x8192 [1, 0] · transposes_S8192x3_S3x8192_1_0) : (⟨S8192x3, .f32⟩ : BufTy).Contents (Elt F) → (⟨S3x8192, .f32⟩ : BufTy).Contents (Elt F)),
    StableHlo.binary main_v6 main_v14 main_v15 ((fun l r => Host.dotGeneral dot_S8192x3_S3x8192_S8192x8192_1_0_0_1_n_n none l r) : (⟨S8192x3, .f32⟩ : BufTy).Contents (Elt F) → (⟨S3x8192, .f32⟩ : BufTy).Contents (Elt F) → (⟨S8192x8192, .f32⟩ : BufTy).Contents (Elt F)),
    StableHlo.nullary main_cst_2 (constant S_ .f32 0x40000000#32),
    StableHlo.unary main_cst_2 main_v16 (broadcastInDim S8192x8192 ![] bcast_S_S8192x8192 : (⟨S_, .f32⟩ : BufTy).Contents (Elt F) → (⟨S8192x8192, .f32⟩ : BufTy).Contents (Elt F)),
    StableHlo.binary main_v16 main_v15 main_v17 (mulf : (⟨S8192x8192, .f32⟩ : BufTy).Contents (Elt F) → (⟨S8192x8192, .f32⟩ : BufTy).Contents (Elt F) → (⟨S8192x8192, .f32⟩ : BufTy).Contents (Elt F)),
    StableHlo.binary main_v13 main_v17 main_v18 (subf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v19 (broadcastInDim S8192x8192 ![] bcast_S_S8192x8192 : (⟨S_, .f32⟩ : BufTy).Contents (Elt F) → (⟨S8192x8192, .f32⟩ : BufTy).Contents (Elt F)),
    StableHlo.binary main_v18 main_v19 main_v20 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_4 (constant S_ .f32 0xBF000000#32),
    StableHlo.unary main_cst_4 main_v21 (broadcastInDim S8192x8192 ![] bcast_S_S8192x8192 : (⟨S_, .f32⟩ : BufTy).Contents (Elt F) → (⟨S8192x8192, .f32⟩ : BufTy).Contents (Elt F)),
    StableHlo.binary main_v21 main_v20 main_v22 (mulf : (⟨S8192x8192, .f32⟩ : BufTy).Contents (Elt F) → (⟨S8192x8192, .f32⟩ : BufTy).Contents (Elt F) → (⟨S8192x8192, .f32⟩ : BufTy).Contents (Elt F)),
    StableHlo.nullary main_cst_5 (constant S_ .f32 0x3E800000#32),
    StableHlo.unary main_cst_5 main_v23 (broadcastInDim S8192x8192 ![] bcast_S_S8192x8192 : (⟨S_, .f32⟩ : BufTy).Contents (Elt F) → (⟨S8192x8192, .f32⟩ : BufTy).Contents (Elt F)),
    StableHlo.binary main_v22 main_v23 main_v24 (Host.divf : (⟨S8192x8192, .f32⟩ : BufTy).Contents (Elt F) → (⟨S8192x8192, .f32⟩ : BufTy).Contents (Elt F) → (⟨S8192x8192, .f32⟩ : BufTy).Contents (Elt F)),
    StableHlo.unary main_v24 main_v25 (Host.exp : (⟨S8192x8192, .f32⟩ : BufTy).Contents (Elt F) → (⟨S8192x8192, .f32⟩ : BufTy).Contents (Elt F)),
    StableHlo.unary main_v25 main_v26 (Host.exp : (⟨S8192x8192, .f32⟩ : BufTy).Contents (Elt F) → (⟨S8192x8192, .f32⟩ : BufTy).Contents (Elt F)),
    StableHlo.nullary main_cst_6 (constant S_ .f32 0x00000000#32),
    StableHlo.binary main_v26 main_cst_6 main_v27 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v27 main_v28 (broadcastInDim S8192x1 ![0] bcast_S8192_S8192x1_0 : (⟨S8192, .f32⟩ : BufTy).Contents (Elt F) → (⟨S8192x1, .f32⟩ : BufTy).Contents (Elt F)),
    StableHlo.unary main_v28 main_v29 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v26 main_v29 main_v30 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_7 (constant S_ .f32 0x38D1B717#32),
    StableHlo.unary main_cst_7 main_v31 (broadcastInDim S8192x8192 ![] bcast_S_S8192x8192 : (⟨S_, .f32⟩ : BufTy).Contents (Elt F) → (⟨S8192x8192, .f32⟩ : BufTy).Contents (Elt F)),
    StableHlo.binary main_v30 main_v31 main_v32 (cmpf .ogt : (⟨S8192x8192, .f32⟩ : BufTy).Contents (Elt F) → (⟨S8192x8192, .f32⟩ : BufTy).Contents (Elt F) → (⟨S8192x8192, .i1⟩ : BufTy).Contents (Elt F)),
    StableHlo.unary main_arg1 main_v33 (broadcastInDim S8192x1 ![0] bcast_S8192_S8192x1_0 : (⟨S8192, .i32⟩ : BufTy).Contents (Elt F) → (⟨S8192x1, .i32⟩ : BufTy).Contents (Elt F)),
    StableHlo.unary main_arg1 main_v34 (broadcastInDim S1x8192 ![1] bcast_S8192_S1x8192_1 : (⟨S8192, .i32⟩ : BufTy).Contents (Elt F) → (⟨S1x8192, .i32⟩ : BufTy).Contents (Elt F)),
    StableHlo.unary main_v33 main_v35 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v34 main_v36 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v35 main_v36 main_v37 (cmpi .eq : (⟨S8192x8192, .i32⟩ : BufTy).Contents (Elt F) → (⟨S8192x8192, .i32⟩ : BufTy).Contents (Elt F) → (⟨S8192x8192, .i1⟩ : BufTy).Contents (Elt F)),
    StableHlo.binary main_v32 main_v37 main_v38 (andi : (⟨S8192x8192, .i1⟩ : BufTy).Contents (Elt F) → (⟨S8192x8192, .i1⟩ : BufTy).Contents (Elt F) → (⟨S8192x8192, .i1⟩ : BufTy).Contents (Elt F)),
    StableHlo.nullary main_cst_8 (constant S_ .f32 0x00000000#32) ]

/-- The three operations of the selection it calls: the zero converted to its own type, spread over the
    result's shape, and the selection itself. -/
abbrev opsCall : List (HloOp τ sig (Elt F)) :=
  [ TRef.unary (.of main_cst_8 : TRef sig ⟨S_, .f32⟩) main_call0.v0 id,
    TRef.unary main_call0.v0 main_call0.v1 (broadcastInDim S8192x8192 ![] bcast_S_S8192x8192),
    TRef.ternary (.of main_v38 : TRef sig ⟨S8192x8192, .i1⟩) (.of main_v30 : TRef sig ⟨S8192x8192, .f32⟩) main_call0.v1 main_call0.v2 select ]

/-- All fifty-three, in order. -/
abbrev ops : List (HloOp τ sig (Elt F)) := opsMain ++ opsCall

set_option maxRecDepth 2048 in
/-- The program is that straight line: the called function unfolded at its call, both sides are one chain of
    steps once sequencing is reassociated. -/
theorem main_eq (c : Dev nD) : main (F := F) c = seq ops := by
  show main (F := F) c = seq (opsMain ++ opsCall)
  rw [seq_append]
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub ..,
    unary_bufs_sub .., unary_bufs_sub .., ternary_bufs_sub ..⟩

theorem ops_fresh : ∀ op ∈ (ops : List (HloOp τ sig (Elt F))), op.fresh = ∅ := by
  intro _ h
  (repeat (cases h with | head => rfl | tail _ h => ?_))
  exact nomatch h

end Ops

/-! ## The composed term -/

/-- The index column [0, 1, 2]. -/
abbrev cols : IVec S3 32 := fun i => lit0 (S3.rowMajor i)

/-- The coordinate columns: the reference's first ten operations applied to x — the three columns 0, 1, 2
    gathered out of the six. -/
def xyz (x : FVec Ideal S8192x6 .f32) : FVec Ideal S8192x3 .f32 :=
  Host.gather gather_S8192x6_S3x1_S8192x3_0_1_n_n_1_1_81921 x
    (broadcastInDim S3x1 ![0] bcast_S3_S3x1_0
      (select (cmpi .slt cols (broadcastInDim S3 ![] bcast_S_S3 (constantI S_ 32 0#32)))
        (addi cols (broadcastInDim S3 ![] bcast_S_S3 (constantI S_ 32 6#32))) cols))

/-- The squared norm of each row: 0 + Σ_k X r k · X r k. -/
def sqT (X : FVec Ideal S8192x3 .f32) : FVec Ideal S8192 .f32 :=
  Host.reduceAdd (mulf X X) (constant S_ .f32 0x00000000#32) reducesTo_S8192x3_S8192_d1 h_S_

/-- The expanded squared distance: (q r + q c) - 2 · (X · Xᵀ) (r, c). -/
def distT (X : FVec Ideal S8192x3 .f32) : FVec Ideal S8192x8192 .f32 :=
  subf
    (addf
      (broadcastInDim S8192x8192 ![0, 1] bcast_S8192x1_S8192x8192_0_1 (broadcastInDim S8192x1 ![0] bcast_S8192_S8192x1_0 (sqT X)))
      (broadcastInDim S8192x8192 ![0, 1] bcast_S1x8192_S8192x8192_0_1 (broadcastInDim S1x8192 ![1] bcast_S8192_S1x8192_1 (sqT X))))
    (mulf (broadcastInDim S8192x8192 ![] bcast_S_S8192x8192 (constant S_ .f32 0x40000000#32))
      (Host.dotGeneral dot_S8192x3_S3x8192_S8192x8192_1_0_0_1_n_n none X
        (transpose S3x8192 [1, 0] X transposes_S8192x3_S3x8192_1_0)))

/-- The affinity: exp (exp ((-1/2 · max d 0) / (1/4))). -/
def affT (X : FVec Ideal S8192x3 .f32) : FVec Ideal S8192x8192 .f32 :=
  Host.exp (Host.exp (Host.divf
    (mulf (broadcastInDim S8192x8192 ![] bcast_S_S8192x8192 (constant S_ .f32 0xBF000000#32))
      (maximumf (distT X) (broadcastInDim S8192x8192 ![] bcast_S_S8192x8192 (constant S_ .f32 0x00000000#32))))
    (broadcastInDim S8192x8192 ![] bcast_S_S8192x8192 (constant S_ .f32 0x3E800000#32))))

/-- The row sums of the affinity: 0 + Σ_c e (r, c). -/
def sumT (X : FVec Ideal S8192x3 .f32) : FVec Ideal S8192 .f32 :=
  Host.reduceAdd (affT X) (constant S_ .f32 0x00000000#32) reducesTo_S8192x8192_S8192_d1 h_S_

/-- The weight: the affinity over its row's sum. -/
def wgtT (X : FVec Ideal S8192x3 .f32) : FVec Ideal S8192x8192 .f32 :=
  Host.divf (affT X)
    (broadcastInDim S8192x8192 ![0, 1] bcast_S8192x1_S8192x8192_0_1 (broadcastInDim S8192x1 ![0] bcast_S8192_S8192x1_0 (sumT X)))

/-- Where the weight exceeds the threshold and the two labels agree. -/
def mskT (X : FVec Ideal S8192x3 .f32) (b : IVec S8192 32) : IVec S8192x8192 1 :=
  andi
    (cmpf .ogt (wgtT X) (broadcastInDim S8192x8192 ![] bcast_S_S8192x8192 (constant S_ .f32 0x38D1B717#32)))
    (cmpi .eq
      (broadcastInDim S8192x8192 ![0, 1] bcast_S8192x1_S8192x8192_0_1 (broadcastInDim S8192x1 ![0] bcast_S8192_S8192x1_0 b))
      (broadcastInDim S8192x8192 ![0, 1] bcast_S1x8192_S8192x8192_0_1 (broadcastInDim S1x8192 ![1] bcast_S8192_S1x8192_1 b)))

/-- The zero the selection writes elsewhere, spread over the result's shape. -/
def zeroT : FVec Ideal S8192x8192 .f32 :=
  broadcastInDim S8192x8192 ![] bcast_S_S8192x8192 (id (constant S_ .f32 0x00000000#32))

/-- The reference's result as a function of its two arguments. -/
def refTerm (x : FVec Ideal S8192x6 .f32) (b : IVec S8192 32) : FVec Ideal S8192x8192 .f32 :=
  select (mskT (xyz x) b) (wgtT (xyz x)) zeroT

/-! ## The fold at the buffers read -/

attribute [local irreducible] Host.reduceAdd Host.gather in
/-- After the reference's own operations the mask's buffer holds the mask. -/
theorem main_v38_eq (V : Valuation τ sig (Elt Ideal)) :
    after opsMain V (main_v38 : DevRef τ sig) = mskT (xyz (V (main_arg0 : DevRef τ sig))) (V (main_arg1 : DevRef τ sig)) := by
  after_results_simp
  rfl

attribute [local irreducible] Host.reduceAdd Host.gather in
/-- After the reference's own operations the weight's buffer holds the weight. -/
theorem main_v30_eq (V : Valuation τ sig (Elt Ideal)) :
    after opsMain V (main_v30 : DevRef τ sig) = wgtT (xyz (V (main_arg0 : DevRef τ sig))) := by
  after_results_simp
  rfl

/-- After the reference's own operations the last zero's buffer holds the zero. -/
theorem main_cst_8_eq (V : Valuation τ sig (Elt Ideal)) :
    after opsMain V (main_cst_8 : DevRef τ sig) = (constant (F := Ideal) S_ .f32 0x00000000#32 : FVec Ideal S_ .f32) := by
  after_results_simp

/-! ## The selection's three operations, over any contents -/

/-- The selection's operations leave at the result buffer the selection of what the mask's, the weight's and
    the zero's buffers held: the carrying of each value to its buffer's type and back cancels in pairs. -/
theorem call_eq (W : Valuation τ sig (Elt Ideal)) :
    after opsCall W (main_v39 : DevRef τ sig)
      = select (W (main_v38 : DevRef τ sig)) (W (main_v30 : DevRef τ sig))
          (broadcastInDim S8192x8192 ![] bcast_S_S8192x8192 (id (W (main_cst_8 : DevRef τ sig)))) := by
  after_results
  rfl

/-- The selection's operations write none of the buffers they read from the reference's own operations. -/
theorem call_keeps (W : Valuation τ sig (Elt Ideal)) {r : Ref sig .tc}
    (h0 : r ≠ main_call0_v0) (h1 : r ≠ main_call0_v1) (h2 : r ≠ main_v39) :
    after opsCall W (Proc.devRef .tc r) = W (Proc.devRef .tc r) := by
  simp only [after_cons, after_nil]
  rw [ternary_result_ne _ _ _ _ _ _ _ _ _ _ h2, unary_result_ne _ _ _ _ _ _ h1, unary_result_ne _ _ _ _ _ _ h0]

/-! ## The fold at the result and at the arguments -/

/-- After all the operations the result buffer holds the composed term of the two arguments. -/
theorem out_eq (V : Valuation τ sig (Elt Ideal)) :
    after ops V (main_v39 : DevRef τ sig) = refTerm (V (main_arg0 : DevRef τ sig)) (V (main_arg1 : DevRef τ sig)) := by
  show after (opsMain ++ opsCall) V _ = _
  rw [Cert.LibAfterAppend.after_concat, call_eq, main_v38_eq, main_v30_eq, main_cst_8_eq]
  rfl

theorem arg0_eq (V : Valuation τ sig (Elt Ideal)) :
    after ops V (main_arg0 : DevRef τ sig) = V (main_arg0 : DevRef τ sig) := by
  show after (opsMain ++ opsCall) V _ = _
  rw [Cert.LibAfterAppend.after_concat, call_keeps _ (by decide) (by decide) (by decide)]
  after_results_simp

theorem arg1_eq (V : Valuation τ sig (Elt Ideal)) :
    after ops V (main_arg1 : DevRef τ sig) = V (main_arg1 : DevRef τ sig) := by
  show after (opsMain ++ opsCall) V _ = _
  rw [Cert.LibAfterAppend.after_concat, call_keeps _ (by decide) (by decide) (by decide)]
  after_results_simp

/-! ## The run -/

/-- On every device, from any memory with zero counters: every weakly fair execution of the reference terminates
    with the result at the composed term of the two arguments, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v39)
            = refTerm (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run defs _ _).mono (fun _ h c => ⟨(h c main_v39).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.RefSide

end
-- ==== Proof.Spec.lean ====
/-
  The two index functions of this certificate, on the extended reals, over an arbitrary array of
  coordinates X : [8192, 3] and labels b : [8192].

  Kernel shape.  For a row r and a column c the squared distance is taken coordinate by coordinate,
      dK(r,c) = ((X r0 - X c0)² + (X r1 - X c1)²) + (X r2 - X c2)²,
  the affinity is e(r,c) = exp (exp (max dK 0 · (-2))), the row's normaliser is accumulated over the eight
  column chunks of 1024, S(r) = ((0 + s₀) + s₁) + … + s₇ with s_k the chunk's sum, and the weight is
  e(r,c) · (1 / S(r)).

  Reference shape.  The squared distance is expanded, dR(r,c) = (q r + q c) - 2 · Σ_k X r k · X c k with
  q r = 0 + Σ_k X r k · X r k, the affinity is exp (exp ((-1/2 · max dR 0) / (1/4))), the normaliser is
  0 + Σ_c e(r,c) over the whole row, and the weight is e(r,c) / S(r).

  Both then keep the weight where it exceeds the threshold and the two labels agree, and write 0 elsewhere.
-/
import Idealize.ShloMosaic.PureOps.Ideal
import Idealize.ShloMosaic.Lib.ValueIdx

noncomputable section

namespace Cert.Affinity

open Idealize.ShloMosaic Idealize.ShloMosaic.ValueIdx

/-- The coordinate array's shape, the label vector's, the result's. -/
abbrev SX : Shape := ⟨2, ![8192, 3]⟩
abbrev SB : Shape := ⟨1, ![8192]⟩
abbrev SO : Shape := ⟨2, ![8192, 8192]⟩

/-- The float words the two programs spell. -/
abbrev zeroW : EReal := Ideal.ofBits .f32 0x00000000#32
abbrev oneW : EReal := Ideal.ofBits .f32 0x3F800000#32
abbrev twoW : EReal := Ideal.ofBits .f32 0x40000000#32
abbrev negTwoW : EReal := Ideal.ofBits .f32 0xC0000000#32
abbrev negHalfW : EReal := Ideal.ofBits .f32 0xBF000000#32
abbrev quarterW : EReal := Ideal.ofBits .f32 0x3E800000#32
abbrev thrW : EReal := Ideal.ofBits .f32 0x38D1B717#32

/-- Keep the weight where it exceeds the threshold and the labels agree; 0 elsewhere. -/
def keep (w : EReal) (p q : BitVec 32) : EReal :=
  Scalar.select (IntOp.andi (Ideal.cmp .ogt w thrW) (IntOp.cmpi .eq p q)) w zeroW

/-- Column `1024·k + j` of the row: chunk `k`, lane `j`. -/
def col (k : Fin 8) (j : Fin 1024) : Fin 8192 := ⟨1024 * k.val + j.val, by omega⟩

/-! ## The kernel's shape -/

def distK (X : SX.Idx → EReal) (r c : Fin 8192) : EReal :=
  ((X (ix2 r 0) - X (ix2 c 0)) * (X (ix2 r 0) - X (ix2 c 0))
    + (X (ix2 r 1) - X (ix2 c 1)) * (X (ix2 r 1) - X (ix2 c 1)))
    + (X (ix2 r 2) - X (ix2 c 2)) * (X (ix2 r 2) - X (ix2 c 2))

def affK (d : EReal) : EReal := Ideal.exp (Ideal.exp (max d zeroW * negTwoW))

def eK (X : SX.Idx → EReal) (r c : Fin 8192) : EReal := affK (distK X r c)

/-- The sum of one chunk of the row. -/
def chunkK (X : SX.Idx → EReal) (r : Fin 8192) (k : Fin 8) : EReal := ∑ j : Fin 1024, eK X r (col k j)

/-- The normaliser after the first `n` chunks, accumulated from the zero word. -/
def accK (X : SX.Idx → EReal) (r : Fin 8192) : ℕ → EReal
  | 0 => zeroW
  | n + 1 => accK X r n + (if h : n < 8 then chunkK X r ⟨n, h⟩ else 0)

def weightK (X : SX.Idx → EReal) (r c : Fin 8192) : EReal := eK X r c * Ideal.div oneW (accK X r 8)

def kern (X : SX.Idx → EReal) (b : SB.Idx → BitVec 32) : SO.Idx → EReal :=
  fun i => keep (weightK X (i 0) (i 1)) (b (ix1 (i 0))) (b (ix1 (i 1)))

/-! ## The reference's shape -/

def sqR (X : SX.Idx → EReal) (r : Fin 8192) : EReal := zeroW + ∑ k : Fin 3, X (ix2 r k) * X (ix2 r k)

def distR (X : SX.Idx → EReal) (r c : Fin 8192) : EReal :=
  (sqR X r + sqR X c) - twoW * ∑ k : Fin 3, X (ix2 r k) * X (ix2 c k)

def affR (d : EReal) : EReal := Ideal.exp (Ideal.exp (Ideal.div (negHalfW * max d zeroW) quarterW))

def eR (X : SX.Idx → EReal) (r c : Fin 8192) : EReal := affR (distR X r c)

def sumR (X : SX.Idx → EReal) (r : Fin 8192) : EReal := zeroW + ∑ c : Fin 8192, eR X r c

def weightR (X : SX.Idx → EReal) (r c : Fin 8192) : EReal := Ideal.div (eR X r c) (sumR X r)

def refn (X : SX.Idx → EReal) (b : SB.Idx → BitVec 32) : SO.Idx → EReal :=
  fun i => keep (weightR X (i 0) (i 1)) (b (ix1 (i 0))) (b (ix1 (i 1)))

end Cert.Affinity

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.LibKeptAxes.lean ====
/-
  Kept unit axes on the host: a vector laid out as a column or as a row, and a column repeated along the rows.

  `broadcast_in_dim` of a length-`m` vector along `dims = [0]` into `[m, 1]` has the vector's entry `r` at `(r, 0)`,
  and so has the reshape of the vector to `[m, 1]`: the two layouts are one array. Likewise a length-`n` vector as
  a `[1, n]` row, by `dims = [1]` or by a reshape. An `[m, 1]` column spread over `n` columns by `dims = [0, 1]` has
  the column's entry of row `r` at `(r, c)`; a rank-0 value spread over any shape has that value everywhere.
-/
import proofs.«169839_j12945031430844_2_alg».proof.Proof.LibRows
import proofs.«169839_j12945031430844_2_alg».proof.Proof.LibRowBroadcast

noncomputable section

namespace Cert.LibKeptAxes

open Idealize.ShloMosaic Idealize.ShloMosaic.ValueIdx

variable {α : Type}

/-- A rank-0 value spread over a shape, at any index. -/
theorem scalar_bcast {t : Shape} (x : (⟨0, ![]⟩ : Shape).Idx → α) (dims : Fin 0 → Fin t.rank)
    (h : (⟨0, ![]⟩ : Shape).BroadcastsInDim t dims) (j : t.Idx) : broadcastInDim t dims h x j = x ix0 := by
  unfold broadcastInDim
  exact congrArg x (funext fun a => a.elim0)

/-- A vector spread to an `[m, 1]` column along a new trailing axis, at `(r, 0)`. -/
theorem col_bcast {m : Nat} (v : (⟨1, ![m]⟩ : Shape).Idx → α)
    (h : (⟨1, ![m]⟩ : Shape).BroadcastsInDim ⟨2, ![m, 1]⟩ ![0]) (r : Fin m) :
    broadcastInDim ⟨2, ![m, 1]⟩ ![0] h v (ix2 r 0) = v (ix1 r) :=
  broadcastInDim_apply ![0] h v (ix2 r 0) (ix1 r) (fun a => match a with
    | ⟨0, _⟩ => by
      show r.val = (if m = 1 then 0 else r.val)
      split
      · have := r.isLt; omega
      · rfl)

/-- An `[m, 1]` column repeated along `n` columns, at `(r, c)`. -/
theorem cols_bcast {m n : Nat} (w : (⟨2, ![m, 1]⟩ : Shape).Idx → α)
    (h : (⟨2, ![m, 1]⟩ : Shape).BroadcastsInDim ⟨2, ![m, n]⟩ ![0, 1]) (r : Fin m) (c : Fin n) :
    broadcastInDim ⟨2, ![m, n]⟩ ![0, 1] h w (ix2 r c) = w (ix2 r 0) :=
  broadcastInDim_apply ![0, 1] h w (ix2 r c) (ix2 r 0) (fun a => match a with
    | ⟨0, _⟩ => by
      show r.val = (if m = 1 then 0 else r.val)
      split
      · have := r.isLt; omega
      · rfl
    | ⟨1, _⟩ => by show 0 = (if (1 : ℕ) = 1 then 0 else c.val); rw [if_pos rfl])

/-- An index of an `[m, 1]` array is `(r, 0)`. -/
theorem idx_col {m : Nat} (j : (⟨2, ![m, 1]⟩ : Shape).Idx) : ∃ r : Fin m, j = ix2 r (0 : Fin 1) :=
  ⟨j 0, funext fun a => match a with
    | ⟨0, _⟩ => rfl
    | ⟨1, _⟩ => Fin.ext (by have := idx2_lt1 j; show (j 1).val = 0; omega)⟩

/-- An index of a `[1, n]` array is `(0, c)`. -/
theorem idx_row {n : Nat} (j : (⟨2, ![1, n]⟩ : Shape).Idx) : ∃ c : Fin n, j = ix2 (0 : Fin 1) c :=
  ⟨j 1, funext fun a => match a with
    | ⟨0, _⟩ => Fin.ext (by have := idx2_lt0 j; show (j 0).val = 0; omega)
    | ⟨1, _⟩ => rfl⟩

/-- The column made by a reshape is the column made by spreading along a new trailing axis. -/
theorem cast_col_eq_bcast {m : Nat} (v : (⟨1, ![m]⟩ : Shape).Idx → α)
    (h1 : (⟨1, ![m]⟩ : Shape).ShapeCasts ⟨2, ![m, 1]⟩) (h2 : (⟨1, ![m]⟩ : Shape).BroadcastsInDim ⟨2, ![m, 1]⟩ ![0]) :
    shapeCast ⟨2, ![m, 1]⟩ v h1 = broadcastInDim ⟨2, ![m, 1]⟩ ![0] h2 v := by
  funext j
  obtain ⟨r, rfl⟩ := idx_col j
  rw [Cert.Rows.cast_col, col_bcast]

/-- The row made by a reshape is the row made by spreading along a new leading axis. -/
theorem cast_row_eq_bcast {n : Nat} (v : (⟨1, ![n]⟩ : Shape).Idx → α)
    (h1 : (⟨1, ![n]⟩ : Shape).ShapeCasts ⟨2, ![1, n]⟩) (h2 : (⟨1, ![n]⟩ : Shape).BroadcastsInDim ⟨2, ![1, n]⟩ ![1]) :
    shapeCast ⟨2, ![1, n]⟩ v h1 = broadcastInDim ⟨2, ![1, n]⟩ ![1] h2 v := by
  funext j
  obtain ⟨c, rfl⟩ := idx_row j
  rw [Cert.LibRowBroadcast.row_cast, Cert.LibRowBroadcast.row_bcast]

end Cert.LibKeptAxes

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«169839_j12945031430844_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.RefValue.lean ====
/-
  The reference's composed term, read index by index.

  Over coordinates X : [8192, 3] and labels b : [8192], each stage of the reference's term is read at a row r
  and a column c: the squared norm q r = 0 + Σ_k X r k · X r k, the expanded squared distance
  (q r + q c) - 2 · Σ_k X r k · X c k, the affinity exp (exp ((-1/2 · max d 0) / (1/4))), its row sum
  0 + Σ_c e (r, c), the weight e (r, c) / S r, and the kept weight.  The composed term is then the
  specification's reference function of the coordinate columns and the labels.
-/
import proofs.«169839_j12945031430844_2_alg».proof.Proof.RefRun
import proofs.«169839_j12945031430844_2_alg».proof.Proof.Spec
import proofs.«169839_j12945031430844_2_alg».proof.Proof.LibHostReads
import proofs.«169839_j12945031430844_2_alg».proof.Proof.LibKeptAxes
import proofs.«169839_j12945031430844_2_alg».proof.Proof.LibPlainDot
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Cert.Affinity Idealize.ShloMosaic Idealize.ShloMosaic.ValueIdx

/-- The squared norm of row r. -/
theorem sqT_apply (X : FVec Ideal S8192x3 .f32) (r : Fin 8192) : sqT X (ix1 r) = sqR X r := by
  unfold sqT
  rw [Cert.LibHostReads.hostRowSum_apply (m := 8192) (n := 3)]
  rfl

/-- The transposed coordinates at (k, c) are the coordinates at (c, k). -/
theorem transpose_at (X : FVec Ideal S8192x3 .f32) (k : Fin 3) (c : Fin 8192) :
    transpose S3x8192 [1, 0] X transposes_S8192x3_S3x8192_1_0 (ix2 k c) = X (ix2 c k) :=
  transpose_apply [1, 0] X transposes_S8192x3_S3x8192_1_0 (ix2 k c) (ix2 c k) fun a => by
    match a with
    | ⟨0, _⟩ => rfl
    | ⟨1, _⟩ => rfl

/-- The product X · Xᵀ at (r, c): Σ_k X r k · X c k. -/
theorem gram_apply (X : FVec Ideal S8192x3 .f32) (r c : Fin 8192) :
    Host.dotGeneral (F := Ideal) dot_S8192x3_S3x8192_S8192x8192_1_0_0_1_n_n none X
        (transpose S3x8192 [1, 0] X transposes_S8192x3_S3x8192_1_0) (ix2 r c)
      = ∑ k : Fin 3, X (ix2 r k) * X (ix2 c k) := by
  refine (Cert.LibPlainDot.dotGeneral_plain_apply (M := 8192) (K := 3) (N := 8192)
    dot_S8192x3_S3x8192_S8192x8192_1_0_0_1_n_n rfl rfl rfl rfl rfl rfl none .single X _ r c).trans ?_
  exact Finset.sum_congr rfl fun k _ => congrArg (X (ix2 r k) * ·) (transpose_at X k c)

/-- The expanded squared distance at (r, c). -/
theorem distT_apply (X : FVec Ideal S8192x3 .f32) (r c : Fin 8192) : distT X (ix2 r c) = distR X r c := by
  unfold distT distR
  show (_ + _) - (_ * _) = _
  rw [Cert.LibHostReads.colOuter_apply (m := 8192) (n := 8192), Cert.LibHostReads.colInner_apply (m := 8192),
    Cert.LibHostReads.rowOuter_apply (m := 8192) (n := 8192), Cert.LibHostReads.rowInner_apply (n := 8192),
    Cert.LibKeptAxes.scalar_bcast, gram_apply, sqT_apply, sqT_apply]
  rfl

/-- The affinity at (r, c). -/
theorem affT_apply (X : FVec Ideal S8192x3 .f32) (r c : Fin 8192) : affT X (ix2 r c) = eR X r c := by
  unfold affT eR affR
  show Ideal.exp (Ideal.exp (Ideal.div (_ * max _ _) _)) = _
  rw [Cert.LibKeptAxes.scalar_bcast, Cert.LibKeptAxes.scalar_bcast, Cert.LibKeptAxes.scalar_bcast, distT_apply]
  rfl

/-- The affinity's row sum at r. -/
theorem sumT_apply (X : FVec Ideal S8192x3 .f32) (r : Fin 8192) : sumT X (ix1 r) = sumR X r := by
  unfold sumT sumR
  rw [Cert.LibHostReads.hostRowSum_apply (m := 8192) (n := 8192)]
  exact congrArg (_ + ·) (Finset.sum_congr rfl fun c _ => affT_apply X r c)

/-- The weight at (r, c). -/
theorem wgtT_apply (X : FVec Ideal S8192x3 .f32) (r c : Fin 8192) : wgtT X (ix2 r c) = weightR X r c := by
  unfold wgtT weightR
  show Ideal.div _ _ = _
  rw [Cert.LibHostReads.colOuter_apply (m := 8192) (n := 8192), Cert.LibHostReads.colInner_apply (m := 8192),
    affT_apply, sumT_apply]

/-- The mask at (r, c). -/
theorem mskT_apply (X : FVec Ideal S8192x3 .f32) (b : IVec S8192 32) (r c : Fin 8192) :
    mskT X b (ix2 r c)
      = IntOp.andi (Ideal.cmp .ogt (weightR X r c) thrW) (IntOp.cmpi .eq (b (ix1 r)) (b (ix1 c))) := by
  unfold mskT
  show IntOp.andi (Ideal.cmp .ogt _ _) (IntOp.cmpi .eq _ _) = _
  rw [Cert.LibKeptAxes.scalar_bcast, wgtT_apply,
    Cert.LibHostReads.colOuter_apply (m := 8192) (n := 8192), Cert.LibHostReads.colInner_apply (m := 8192),
    Cert.LibHostReads.rowOuter_apply (m := 8192) (n := 8192), Cert.LibHostReads.rowInner_apply (n := 8192)]
  rfl

/-- The zero written elsewhere, at any index. -/
theorem zeroT_apply (i : S8192x8192.Idx) : zeroT i = zeroW := by
  unfold zeroT
  rw [Cert.LibKeptAxes.scalar_bcast]
  rfl

/-- The reference's composed term is the specification's reference function of the coordinate columns and
    the labels. -/
theorem refTerm_eq (x : FVec Ideal S8192x6 .f32) (b : IVec S8192 32) :
    refTerm x b = Cert.Affinity.refn (xyz x) b := by
  funext i
  obtain ⟨r, c, rfl⟩ : ∃ (r c : Fin 8192), i = ix2 r c := ⟨i 0, i 1, eq_ix2 i⟩
  unfold refTerm
  show Scalar.select _ _ _ = _
  rw [mskT_apply, wgtT_apply, zeroT_apply]
  rfl

end Cert.RefSide

end
-- ==== Proof.KIBlockPieces.lean ====
/-
  The contents two lists of chunk stores leave in a [256, 8192] buffer, read chunk by chunk.

  Each pass stores chunk k, a [256, 1024] array, at columns 1024·k … 1024·k + 1023 of the buffer.  The
  local index (p, j) of chunk k sits at the buffer's index (p, 1024·k + j).  A later chunk's columns lie
  strictly above an earlier chunk's, so after the stores of the chunks before n the buffer holds, at
  (p, 1024·k + j) with k < n, the k-th stored array at (p, j).
-/
import proofs.«169839_j12945031430844_2_alg».proof.Proof.KIRun
import Idealize.ShloMosaic.Lib.ValueIdx

noncomputable section

namespace Cert.KernelIdeal.BlockValue

open Cert.KernelIdeal Cert.KernelIdeal.Gen Cert.KernelIdeal.GenP
open Idealize.ShloMosaic Idealize.ShloMosaic.ValueIdx

variable {F : FTy → Type} [FloatOps F]

/-- Both passes make eight trips. -/
theorem trips1_eq : k0_t1_loop.trips = 8 := by decide +kernel
theorem trips2_eq : k0_t2_loop.trips = 8 := by decide +kernel

/-- Column 1024·k + j of the buffer, for a chunk number below eight. -/
def colN (k : ℕ) (hk : k < 8) (j : Fin 1024) : Fin 8192 := ⟨1024 * k + j.val, by have := j.isLt; omega⟩

theorem lt8₁ (k : Fin k0_t1_loop.trips) : k.val < 8 := lt_of_lt_of_le k.isLt k0_t1_abs.2.1
theorem lt8₂ (k : Fin k0_t2_loop.trips) : k.val < 8 := lt_of_lt_of_le k.isLt k0_t2_abs.2.1

/-! ## Where the rectangles place their local indices -/

theorem rA_emb (k : Fin k0_t1_loop.trips) (p : Fin 256) (j : Fin 1024) :
    (rA k).emb (ix2 p j) = ix2 p (colN k.val (lt8₁ k) j) := by
  funext a
  apply Fin.ext
  rw [Rect.emb_apply]
  show k0_off4 k a + 1 * _ = _
  rw [k0_off4_eq k]
  match a with
  | ⟨0, _⟩ => show 0 + 1 * p.val = p.val; omega
  | ⟨1, _⟩ => show 1024 * k.val + 1 * j.val = 1024 * k.val + j.val; omega

theorem rB_emb (k : Fin k0_t2_loop.trips) (p : Fin 256) (j : Fin 1024) :
    (rB k).emb (ix2 p j) = ix2 p (colN k.val (lt8₂ k) j) := by
  funext a
  apply Fin.ext
  rw [Rect.emb_apply]
  show k0_off5 k a + 1 * _ = _
  rw [k0_off5_eq k]
  match a with
  | ⟨0, _⟩ => show 0 + 1 * p.val = p.val; omega
  | ⟨1, _⟩ => show 1024 * k.val + 1 * j.val = 1024 * k.val + j.val; omega

/-- A column of an earlier chunk is not among a later chunk's. -/
theorem not_mem_rA (n : Fin k0_t1_loop.trips) (k : ℕ) (hk : k < 8) (hkn : k < n.val) (p : Fin 256) (j : Fin 1024) :
    (ix2 p (colN k hk j) : S256x8192.Idx) ∉ (rA n).set := by
  rw [Rect.mem_set_unit]
  intro h
  have h1 := (h 1).1
  rw [k0_off4_eq n] at h1
  have h2 : 1024 * n.val ≤ 1024 * k + j.val := h1
  have := j.isLt
  omega

theorem not_mem_rB (n : Fin k0_t2_loop.trips) (k : ℕ) (hk : k < 8) (hkn : k < n.val) (p : Fin 256) (j : Fin 1024) :
    (ix2 p (colN k hk j) : S256x8192.Idx) ∉ (rB n).set := by
  rw [Rect.mem_set_unit]
  intro h
  have h1 := (h 1).1
  rw [k0_off5_eq n] at h1
  have h2 : 1024 * n.val ≤ 1024 * k + j.val := h1
  have := j.isLt
  omega

/-! ## The two lists of stores, read at a chunk's index -/

/-- After the first pass's stores of the chunks before n, the buffer holds chunk k < n at its columns. -/
theorem canon_storesE (v0 v2 v4 : Vec F S256x1 .f32) (X : Vec F S3x8192 .f32) (k : Fin k0_t1_loop.trips)
    (p : Fin 256) (j : Fin 1024) (n : ℕ) :
    n ≤ k0_t1_loop.trips → k.val < n →
      View.canon (storesE v0 v2 v4 X n) (ix2 p (colN k.val (lt8₁ k) j)) = chunkE v0 v2 v4 X k (ix2 p j) := by
  induction n with
  | zero => exact fun _ hk => absurd hk (Nat.not_lt_zero _)
  | succ n ih =>
    intro hn hk
    have hlt : n < k0_t1_loop.trips := hn
    have hs : storesE v0 v2 v4 X (n + 1)
        = (⟨rA ⟨n, hlt⟩, chunkE v0 v2 v4 X ⟨n, hlt⟩⟩ : View.Piece (Elt F) S256x8192 .f32) :: storesE v0 v2 v4 X n := by
      rw [storesE, dif_pos hlt]
    rw [hs]
    rcases Nat.lt_succ_iff_lt_or_eq.mp hk with hkn | hkn
    · refine (View.canon_cons_of_not_mem
        (⟨rA ⟨n, hlt⟩, chunkE v0 v2 v4 X ⟨n, hlt⟩⟩ : View.Piece (Elt F) S256x8192 .f32) (storesE v0 v2 v4 X n)
        (not_mem_rA ⟨n, hlt⟩ k.val (lt8₁ k) hkn p j)).trans ?_
      exact ih (Nat.le_of_succ_le hn) hkn
    · obtain rfl : k = ⟨n, hlt⟩ := Fin.ext hkn
      rw [← rA_emb ⟨n, hlt⟩ p j]
      exact View.canon_cons_emb (rA ⟨n, hlt⟩) (chunkE v0 v2 v4 X ⟨n, hlt⟩) (storesE v0 v2 v4 X n) (ix2 p j)

/-- After the second pass's stores of the chunks before n, the buffer holds chunk k < n at its columns. -/
theorem canon_storesO (s : Vec F S256x1 .f32) (l : Vec F S256x1 .i32) (e : Vec F S256x8192 .f32) (b : Vec F S1x8192 .i32)
    (k : Fin k0_t2_loop.trips) (p : Fin 256) (j : Fin 1024) (n : ℕ) :
    n ≤ k0_t2_loop.trips → k.val < n →
      View.canon (storesO s l e b n) (ix2 p (colN k.val (lt8₂ k) j))
        = k0_pay5 s l (View.ld e (rB k)) (View.ld b (rL k)) (ix2 p j) := by
  induction n with
  | zero => exact fun _ hk => absurd hk (Nat.not_lt_zero _)
  | succ n ih =>
    intro hn hk
    have hlt : n < k0_t2_loop.trips := hn
    have hs : storesO s l e b (n + 1)
        = (⟨rB ⟨n, hlt⟩, k0_pay5 s l (View.ld e (rB ⟨n, hlt⟩)) (View.ld b (rL ⟨n, hlt⟩))⟩ : View.Piece (Elt F) S256x8192 .f32)
            :: storesO s l e b n := by
      rw [storesO, dif_pos hlt]
    rw [hs]
    rcases Nat.lt_succ_iff_lt_or_eq.mp hk with hkn | hkn
    · refine (View.canon_cons_of_not_mem
        (⟨rB ⟨n, hlt⟩, k0_pay5 s l (View.ld e (rB ⟨n, hlt⟩)) (View.ld b (rL ⟨n, hlt⟩))⟩ : View.Piece (Elt F) S256x8192 .f32)
        (storesO s l e b n) (not_mem_rB ⟨n, hlt⟩ k.val (lt8₂ k) hkn p j)).trans ?_
      exact ih (Nat.le_of_succ_le hn) hkn
    · obtain rfl : k = ⟨n, hlt⟩ := Fin.ext hkn
      rw [← rB_emb ⟨n, hlt⟩ p j]
      exact View.canon_cons_emb (rB ⟨n, hlt⟩) (k0_pay5 s l (View.ld e (rB ⟨n, hlt⟩)) (View.ld b (rL ⟨n, hlt⟩)))
        (storesO s l e b n) (ix2 p j)

end Cert.KernelIdeal.BlockValue

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«169839_j12945031430844_2_alg».proof.Proof.LibRows
import proofs.«169839_j12945031430844_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KIBlockPay.lean ====
/-
  The kernel's computed arrays read at one index, on the extended reals.

  The affinity chunk at (p, j) is the affinity of the squared distance taken coordinate by coordinate between
  the three column values at row p and the three row values at lane j.  The row-sum step adds to the column
  the sum of the chunk's row.  The output chunk at (p, j) keeps the entry scaled by the reciprocal of the
  row's normaliser where it exceeds the threshold and the two labels agree.  Every operation is pointwise, a
  broadcast of a column or of a row, an identity recast, or the sum along the lanes, so each array is read at
  an index by unfolding it once.
-/
import proofs.«169839_j12945031430844_2_alg».proof.Proof.KIRun
import proofs.«169839_j12945031430844_2_alg».proof.Proof.Spec
import proofs.«169839_j12945031430844_2_alg».proof.Proof.LibRows
import proofs.«169839_j12945031430844_2_alg».proof.Proof.LibMatrixReduce
import Idealize.ShloMosaic.Lib.ValueIdx

noncomputable section

namespace Cert.KernelIdeal.BlockValue

open Cert.KernelIdeal Cert.KernelIdeal.Gen Cert.KernelIdeal.GenP
open Idealize.ShloMosaic Idealize.ShloMosaic.ValueIdx

open Cert.Affinity (affK keep zeroW oneW negTwoW thrW)

/-! ## The shapes of the two computations, over full-size arrays -/

/-- The double exponential of the clamped, scaled squared distance, pointwise. -/
theorem aff_core (a0 a1 a2 b0 b1 b2 : FVec Ideal S256x1024 .f32) (i : S256x1024.Idx) :
    exp (exp (mulf (maximumf (addf (addf (mulf (subf a0 b0) (subf a0 b0)) (mulf (subf a1 b1) (subf a1 b1)))
          (mulf (subf a2 b2) (subf a2 b2)))
        (broadcast S256x1024 (Scalar.ofBits (F := Ideal) .f32 0x00000000#32)))
        (broadcast S256x1024 (Scalar.ofBits (F := Ideal) .f32 0xC0000000#32)))) i
      = affK (((a0 i - b0 i) * (a0 i - b0 i) + (a1 i - b1 i) * (a1 i - b1 i)) + (a2 i - b2 i) * (a2 i - b2 i)) := rfl

/-- The threshold-and-label mask, pointwise. -/
theorem keep_core (w : FVec Ideal S256x1024 .f32) (l b : IVec S256x1024 32) (i : S256x1024.Idx) :
    select (andi (cmpf .ogt w (broadcast S256x1024 (Scalar.ofBits (F := Ideal) .f32 0x38D1B717#32))) (cmpi .eq l b)) w
        (broadcast S256x1024 (Scalar.ofBits (F := Ideal) .f32 0x00000000#32)) i
      = keep (w i) (l i) (b i) := rfl

/-! ## Broadcasts of a column and of a recast row, read at an index -/

theorem col_at {α : Type} (v : S256x1.Idx → α) (p : Fin 256) (j : Fin 1024) :
    broadcastTo S256x1024 v broadcasts_S256x1_S256x1024 (ix2 p j) = v (ix2 p 0) :=
  Cert.Rows.bcast_col (by decide) v broadcasts_S256x1_S256x1024 p j

theorem row_at {α : Type} (t : S1x1024.Idx → α) (p : Fin 256) (j : Fin 1024) :
    broadcastTo S256x1024 (shapeCast S1x1024 t shapeCasts_S1x1024_S1x1024) broadcasts_S1x1024_S256x1024 (ix2 p j)
      = t (ix2 0 j) :=
  (Cert.Rows.bcast_row (by decide) _ broadcasts_S1x1024_S256x1024 p j).trans
    (congrFun (shapeCast_self t shapeCasts_S1x1024_S1x1024) (ix2 0 j))

/-! ## The payloads -/

theorem pay1_eq (v : Vec Ideal S256x1 .f32) : k0_pay1 (F := Ideal) v = v := shapeCast_self v shapeCasts_S256x1_S256x1
theorem pay2_eq (v : Vec Ideal S256x1 .f32) : k0_pay2 (F := Ideal) v = v := shapeCast_self v shapeCasts_S256x1_S256x1
theorem pay3_eq (v : Vec Ideal S256x1 .f32) : k0_pay3 (F := Ideal) v = v := shapeCast_self v shapeCasts_S256x1_S256x1

/-- The zero fill. -/
theorem pay4_apply (i : S256x1.Idx) : k0_pay4 (F := Ideal) i = zeroW :=
  congrFun (shapeCast_self (broadcast S256x1 (Scalar.ofBits (F := Ideal) .f32 0x00000000#32)) shapeCasts_S256x1_S256x1) i

/-- The affinity chunk at (p, j). -/
theorem pay6_apply (v1 v3 v5 : FVec Ideal S256x1 .f32) (t0 t1 t2 : Vec Ideal S1x1024 .f32) (p : Fin 256) (j : Fin 1024) :
    k0_pay6 (F := Ideal) v1 v3 v5 t0 t1 t2 (ix2 p j)
      = affK (((v1 (ix2 p 0) - t0 (ix2 0 j)) * (v1 (ix2 p 0) - t0 (ix2 0 j))
            + (v3 (ix2 p 0) - t1 (ix2 0 j)) * (v3 (ix2 p 0) - t1 (ix2 0 j)))
          + (v5 (ix2 p 0) - t2 (ix2 0 j)) * (v5 (ix2 p 0) - t2 (ix2 0 j))) := by
  refine (aff_core (broadcastTo S256x1024 v1 broadcasts_S256x1_S256x1024)
    (broadcastTo S256x1024 v3 broadcasts_S256x1_S256x1024) (broadcastTo S256x1024 v5 broadcasts_S256x1_S256x1024)
    (broadcastTo S256x1024 (shapeCast S1x1024 t0 shapeCasts_S1x1024_S1x1024) broadcasts_S1x1024_S256x1024)
    (broadcastTo S256x1024 (shapeCast S1x1024 t1 shapeCasts_S1x1024_S1x1024) broadcasts_S1x1024_S256x1024)
    (broadcastTo S256x1024 (shapeCast S1x1024 t2 shapeCasts_S1x1024_S1x1024) broadcasts_S1x1024_S256x1024)
    (ix2 p j)).trans ?_
  rw [col_at v1 p j, col_at v3 p j, col_at v5 p j, row_at t0 p j, row_at t1 p j, row_at t2 p j]

/-- The stored chunk is the affinity chunk. -/
theorem pay7_eq (v1 v3 v5 : FVec Ideal S256x1 .f32) (t0 t1 t2 : Vec Ideal S1x1024 .f32) :
    k0_pay7 (F := Ideal) v1 v3 v5 t0 t1 t2 = k0_pay6 (F := Ideal) v1 v3 v5 t0 t1 t2 :=
  shapeCast_self _ shapeCasts_S256x1024_S256x1024

/-- The row-sum step at row p: the column's value plus the sum of the chunk's row. -/
theorem pay8_apply (v1 v3 v5 : FVec Ideal S256x1 .f32) (t0 t1 t2 : Vec Ideal S1x1024 .f32) (z : Vec Ideal S256x1 .f32)
    (p : Fin 256) :
    k0_pay8 (F := Ideal) v1 v3 v5 t0 t1 t2 z (ix2 p 0)
      = z (ix2 p 0) + ∑ j : Fin 1024, k0_pay6 (F := Ideal) v1 v3 v5 t0 t1 t2 (ix2 p j) := by
  have h1 : k0_pay8 (F := Ideal) v1 v3 v5 t0 t1 t2 z
      = addf z (shapeCast S256x1 (multiReduction .add [1] S256 (k0_pay6 (F := Ideal) v1 v3 v5 t0 t1 t2) 0x00000000#32
          reduces_S256x1024_S256 (.inl rfl) rfl) shapeCasts_S256_S256x1) :=
    shapeCast_self _ shapeCasts_S256x1_S256x1
  refine (congrFun h1 (ix2 p 0)).trans ?_
  refine congrArg (fun t => z (ix2 p 0) + t) ?_
  exact (Cert.Rows.cast_col _ shapeCasts_S256_S256x1 p).trans
    (Cert.LibMatrixReduce.rowSum_apply (k0_pay6 (F := Ideal) v1 v3 v5 t0 t1 t2) 0x00000000#32 reduces_S256x1024_S256 (.inl rfl) rfl p)

/-- The output chunk at (p, j). -/
theorem pay5_apply (s : Vec Ideal S256x1 .f32) (l : Vec Ideal S256x1 .i32) (e : Vec Ideal S256x1024 .f32)
    (b : Vec Ideal S1x1024 .i32) (p : Fin 256) (j : Fin 1024) :
    k0_pay5 (F := Ideal) s l e b (ix2 p j)
      = keep (e (ix2 p j) * Ideal.div oneW (s (ix2 p 0))) (l (ix2 p 0)) (b (ix2 0 j)) := by
  refine (keep_core
    (mulf e (broadcastTo S256x1024 (divf (broadcast S256x1 (Scalar.ofBits (F := Ideal) .f32 0x3F800000#32)) s)
      broadcasts_S256x1_S256x1024))
    (broadcastTo S256x1024 (shapeCast S256x1 l shapeCasts_S256x1_S256x1) broadcasts_S256x1_S256x1024)
    (broadcastTo S256x1024 (shapeCast S1x1024 b shapeCasts_S1x1024_S1x1024) broadcasts_S1x1024_S256x1024)
    (ix2 p j)).trans ?_
  have e1 : mulf e (broadcastTo S256x1024 (divf (broadcast S256x1 (Scalar.ofBits (F := Ideal) .f32 0x3F800000#32)) s)
      broadcasts_S256x1_S256x1024) (ix2 p j) = e (ix2 p j) * Ideal.div oneW (s (ix2 p 0)) :=
    congrArg (fun t => e (ix2 p j) * t)
      (col_at (divf (broadcast S256x1 (Scalar.ofBits (F := Ideal) .f32 0x3F800000#32)) s) p j)
  have e2 : broadcastTo S256x1024 (shapeCast S256x1 l shapeCasts_S256x1_S256x1) broadcasts_S256x1_S256x1024 (ix2 p j)
      = l (ix2 p 0) :=
    (col_at _ p j).trans (congrFun (shapeCast_self l shapeCasts_S256x1_S256x1) (ix2 p 0))
  rw [e1, e2, row_at b p j]

end Cert.KernelIdeal.BlockValue

end
-- ==== Proof.KIChunks.lean ====
/-
  The kernel body's loads, read at coordinates.

  Every load of the body goes through a unit-stride box of a two-axis array: the box's entry (p, j) is the
  array's entry (a + p, b + j), with (a, b) the box's offsets.  For the three coordinate columns the offsets
  are (0, 0), (0, 1), (0, 2); for row a of the transposed coordinates, chunk k, they are (a, 1024·k); for
  chunk k of a [256, 8192] buffer and of the label row they are (0, 1024·k).  So each load reads the array
  at the row (or the fixed column) and at column 1024·k + j of the chunk, and every column of the row is
  such a column for exactly one chunk k and lane j.
-/
import proofs.«169839_j12945031430844_2_alg».proof.Proof.KIRun
import proofs.«169839_j12945031430844_2_alg».proof.Proof.Spec
import Idealize.ShloMosaic.Lib.ValueIdx
import Idealize.ShloMosaic.Lib.Pipeline.Value

noncomputable section

namespace Cert.KernelIdeal.BlockValue

open Cert.KernelIdeal Cert.KernelIdeal.Gen Cert.KernelIdeal.GenP Cert.Affinity
open Idealize.ShloMosaic Idealize.ShloMosaic.ValueIdx

/-- Each pass makes at most eight trips. -/
theorem trip1_lt8 (k : Fin k0_t1_loop.trips) : k.val < 8 := lt_of_lt_of_le k.isLt k0_t1_abs.2.1
theorem trip2_lt8 (k : Fin k0_t2_loop.trips) : k.val < 8 := lt_of_lt_of_le k.isLt k0_t2_abs.2.1

/-- Every column of a row of 8192 is lane j of chunk k for some k < 8, j < 1024. -/
theorem exists_col (q : Fin 8192) : ∃ (k : Fin 8) (j : Fin 1024), q = col k j :=
  ⟨⟨q.val / 1024, by have := q.isLt; omega⟩, ⟨q.val % 1024, Nat.mod_lt _ (by decide)⟩,
    Fin.ext (by show q.val = 1024 * (q.val / 1024) + q.val % 1024; omega)⟩

/-- A unit-stride box of a two-axis array with offsets (a, b): its entry (p, j) sits at (a + p, b + j). -/
theorem unit_idx {n0 n1 m0 m1 : ℕ} {off : Fin 2 → ℕ}
    {inb : ∀ d, off d + (⟨2, ![m0, m1]⟩ : Shape).size d ≤ (⟨2, ![n0, n1]⟩ : Shape).size d}
    (a b : ℕ) (ho : off = ![a, b]) (p : Fin m0) (j : Fin m1) (P : Fin n0) (J : Fin n1)
    (hP : P.val = a + p.val) (hJ : J.val = b + j.val) :
    (Rect.unit (s := (⟨2, ![n0, n1]⟩ : Shape)) off (⟨2, ![m0, m1]⟩ : Shape).size inb).idx (ix2 p j) = ix2 P J := by
  subst ho
  funext d
  match d with
  | ⟨0, _⟩ => exact Fin.ext (by show a + 1 * p.val = P.val; omega)
  | ⟨1, _⟩ => exact Fin.ext (by show b + 1 * j.val = J.val; omega)

section Loads

variable {Val : EltTy → Type} {e' : EltTy}

/-- The three coordinate columns of the block, at row p. -/
theorem ld_rX0 (x : S256x3.Idx → Val e') (p : Fin 256) : View.ld x rX0 (ix2 p (0 : Fin 1)) = x (ix2 p (0 : Fin 3)) :=
  congrArg x (unit_idx 0 0 rfl p 0 p 0 (by omega) rfl)
theorem ld_rX1 (x : S256x3.Idx → Val e') (p : Fin 256) : View.ld x rX1 (ix2 p (0 : Fin 1)) = x (ix2 p (1 : Fin 3)) :=
  congrArg x (unit_idx 0 1 rfl p 0 p 1 (by omega) rfl)
theorem ld_rX2 (x : S256x3.Idx → Val e') (p : Fin 256) : View.ld x rX2 (ix2 p (0 : Fin 1)) = x (ix2 p (2 : Fin 3)) :=
  congrArg x (unit_idx 0 2 rfl p 0 p 2 (by omega) rfl)

/-- The whole [256, 1] column, loaded, is the column. -/
theorem ld_rW (z : S256x1.Idx → Val e') : View.ld z rW = z :=
  View.ld_unit_zero zero_off inb_S256x1_S256x1_0_0 z

/-- Row 0, 1, 2 of the transposed coordinates, chunk k, at lane j. -/
theorem ld_rT0 (X : S3x8192.Idx → Val e') (k : Fin k0_t1_loop.trips) (hk : k.val < 8) (j : Fin 1024) :
    View.ld X (rT0 k) (ix2 (0 : Fin 1) j) = X (ix2 (0 : Fin 3) (col ⟨k.val, hk⟩ j)) :=
  congrArg X (unit_idx 0 (1024 * k.val) (k0_off1_eq k) 0 j 0 (col ⟨k.val, hk⟩ j) rfl rfl)
theorem ld_rT1 (X : S3x8192.Idx → Val e') (k : Fin k0_t1_loop.trips) (hk : k.val < 8) (j : Fin 1024) :
    View.ld X (rT1 k) (ix2 (0 : Fin 1) j) = X (ix2 (1 : Fin 3) (col ⟨k.val, hk⟩ j)) :=
  congrArg X (unit_idx 1 (1024 * k.val) (k0_off2_eq k) 0 j 1 (col ⟨k.val, hk⟩ j) rfl rfl)
theorem ld_rT2 (X : S3x8192.Idx → Val e') (k : Fin k0_t1_loop.trips) (hk : k.val < 8) (j : Fin 1024) :
    View.ld X (rT2 k) (ix2 (0 : Fin 1) j) = X (ix2 (2 : Fin 3) (col ⟨k.val, hk⟩ j)) :=
  congrArg X (unit_idx 2 (1024 * k.val) (k0_off3_eq k) 0 j 2 (col ⟨k.val, hk⟩ j) rfl rfl)

/-- Chunk k of a [256, 8192] buffer, first and second pass, at (p, j). -/
theorem ld_rA (E : S256x8192.Idx → Val e') (k : Fin k0_t1_loop.trips) (hk : k.val < 8) (p : Fin 256) (j : Fin 1024) :
    View.ld E (rA k) (ix2 p j) = E (ix2 p (col ⟨k.val, hk⟩ j)) :=
  congrArg E (unit_idx 0 (1024 * k.val) (k0_off4_eq k) p j p (col ⟨k.val, hk⟩ j) (by omega) rfl)
theorem ld_rB (E : S256x8192.Idx → Val e') (k : Fin k0_t2_loop.trips) (hk : k.val < 8) (p : Fin 256) (j : Fin 1024) :
    View.ld E (rB k) (ix2 p j) = E (ix2 p (col ⟨k.val, hk⟩ j)) :=
  congrArg E (unit_idx 0 (1024 * k.val) (k0_off5_eq k) p j p (col ⟨k.val, hk⟩ j) (by omega) rfl)

/-- Chunk k of the label row, at lane j. -/
theorem ld_rL (b : S1x8192.Idx → Val e') (k : Fin k0_t2_loop.trips) (hk : k.val < 8) (j : Fin 1024) :
    View.ld b (rL k) (ix2 (0 : Fin 1) j) = b (ix2 (0 : Fin 1) (col ⟨k.val, hk⟩ j)) :=
  congrArg b (unit_idx 0 (1024 * k.val) (k0_off6_eq k) 0 j 0 (col ⟨k.val, hk⟩ j) rfl rfl)

/-- The placements of chunk k's boxes, for the stores: entry (p, j) of chunk k sits at (p, 1024·k + j). -/
theorem rA_idx (k : Fin k0_t1_loop.trips) (hk : k.val < 8) (p : Fin 256) (j : Fin 1024) :
    (rA k).idx (ix2 p j) = ix2 p (col ⟨k.val, hk⟩ j) :=
  unit_idx 0 (1024 * k.val) (k0_off4_eq k) p j p (col ⟨k.val, hk⟩ j) (by omega) rfl
theorem rB_idx (k : Fin k0_t2_loop.trips) (hk : k.val < 8) (p : Fin 256) (j : Fin 1024) :
    (rB k).idx (ix2 p j) = ix2 p (col ⟨k.val, hk⟩ j) :=
  unit_idx 0 (1024 * k.val) (k0_off5_eq k) p j p (col ⟨k.val, hk⟩ j) (by omega) rfl

end Loads

end Cert.KernelIdeal.BlockValue

end
-- ==== Proof.KIBlockValue.lean ====
/-
  The output block's value, index by index, against the kernel shape of the specification.

  Row p of the block is row r of the coordinate array X, the second operand is X transposed, and the label
  operands are the labels b.  Then: the affinity chunk k at (p, j) is the specification's entry of row r at
  column 1024·k + j; the row-sum column after n trips is, at row p, the specification's accumulator after n
  chunks; so the affinity buffer holds the entries of row r, the row-sum column holds the normaliser after eight
  chunks, and the second pass's chunk k at (p, j) keeps entry · (1 / normaliser) under the threshold and the
  agreement of the labels of r and of column 1024·k + j — the specification's kernel function at (r, 1024·k + j).
-/
import proofs.«169839_j12945031430844_2_alg».proof.Proof.KIBlockPieces
import proofs.«169839_j12945031430844_2_alg».proof.Proof.KIBlockPay
import proofs.«169839_j12945031430844_2_alg».proof.Proof.KIChunks
import proofs.«169839_j12945031430844_2_alg».proof.Proof.Spec

noncomputable section

namespace Cert.KernelIdeal.BlockValue

open Cert.KernelIdeal Cert.KernelIdeal.Gen Cert.KernelIdeal.GenP
open Idealize.ShloMosaic Idealize.ShloMosaic.ValueIdx

open Cert.Affinity

section
variable (x0 : Vec Ideal S256x3 .f32) (x1 : Vec Ideal S3x8192 .f32) (X : SX.Idx → EReal) (r : Fin 8192) (p : Fin 256)

/-- The affinity chunk at (p, j) is the entry of row r at the chunk's column. -/
theorem pay6_entry (h0 : ∀ a : Fin 3, x0 (ix2 p a) = X (ix2 r a)) (h1 : ∀ (a : Fin 3) (c : Fin 8192), x1 (ix2 a c) = X (ix2 c a))
    (k : Fin k0_t1_loop.trips) (j : Fin 1024) :
    k0_pay6 (F := Ideal) (k0_pay1 (View.ld x0 rX0)) (k0_pay2 (View.ld x0 rX1)) (k0_pay3 (View.ld x0 rX2))
        (View.ld x1 (rT0 k)) (View.ld x1 (rT1 k)) (View.ld x1 (rT2 k)) (ix2 p j)
      = eK X r (col ⟨k.val, trip1_lt8 k⟩ j) := by
  rw [pay6_apply, pay1_eq, pay2_eq, pay3_eq, ld_rX0, ld_rX1, ld_rX2, ld_rT0 x1 k (trip1_lt8 k), ld_rT1 x1 k (trip1_lt8 k),
    ld_rT2 x1 k (trip1_lt8 k), h0 0, h0 1, h0 2, h1 0, h1 1, h1 2]
  rfl

theorem chunkE_apply (h0 : ∀ a : Fin 3, x0 (ix2 p a) = X (ix2 r a)) (h1 : ∀ (a : Fin 3) (c : Fin 8192), x1 (ix2 a c) = X (ix2 c a))
    (k : Fin k0_t1_loop.trips) (j : Fin 1024) :
    chunkE (F := Ideal) (View.ld x0 rX0) (View.ld x0 rX1) (View.ld x0 rX2) x1 k (ix2 p j)
      = eK X r (col ⟨k.val, trip1_lt8 k⟩ j) := by
  unfold chunkE
  rw [pay7_eq]
  exact pay6_entry x0 x1 X r p h0 h1 k j

/-- The row-sum column after the trips before n is, at row p, the accumulator after n chunks. -/
theorem sumsS_apply (h0 : ∀ a : Fin 3, x0 (ix2 p a) = X (ix2 r a)) (h1 : ∀ (a : Fin 3) (c : Fin 8192), x1 (ix2 a c) = X (ix2 c a))
    (n : ℕ) :
    n ≤ k0_t1_loop.trips →
      sumsS (F := Ideal) (View.ld x0 rX0) (View.ld x0 rX1) (View.ld x0 rX2) x1 (k0_pay4 (F := Ideal)) n (ix2 p 0)
        = accK X r n := by
  induction n with
  | zero => exact fun _ => pay4_apply (ix2 p 0)
  | succ n ih =>
    intro hn
    have hlt : n < k0_t1_loop.trips := hn
    have h8 : n < 8 := lt_of_lt_of_le hlt k0_t1_abs.2.1
    have hs : sumsS (F := Ideal) (View.ld x0 rX0) (View.ld x0 rX1) (View.ld x0 rX2) x1 (k0_pay4 (F := Ideal)) (n + 1)
        = stepS (F := Ideal) (View.ld x0 rX0) (View.ld x0 rX1) (View.ld x0 rX2) x1 ⟨n, hlt⟩
            (sumsS (F := Ideal) (View.ld x0 rX0) (View.ld x0 rX1) (View.ld x0 rX2) x1 (k0_pay4 (F := Ideal)) n) := by
      rw [sumsS, dif_pos hlt]
    rw [hs]
    unfold stepS
    rw [pay8_apply, ld_rW, ih (Nat.le_of_succ_le hn)]
    have hc : ∑ j : Fin 1024, k0_pay6 (F := Ideal) (k0_pay1 (View.ld x0 rX0)) (k0_pay2 (View.ld x0 rX1)) (k0_pay3 (View.ld x0 rX2))
        (View.ld x1 (rT0 ⟨n, hlt⟩)) (View.ld x1 (rT1 ⟨n, hlt⟩)) (View.ld x1 (rT2 ⟨n, hlt⟩)) (ix2 p j) = chunkK X r ⟨n, h8⟩ := by
      unfold chunkK
      exact Finset.sum_congr rfl fun j _ => pay6_entry x0 x1 X r p h0 h1 ⟨n, hlt⟩ j
    rw [hc]
    show _ = accK X r n + (if h : n < 8 then chunkK X r ⟨n, h⟩ else 0)
    rw [dif_pos h8]

end

/-- The block's value at (p, q), where row p of the block is row r of the coordinates: the specification's kernel
    function at (r, q). -/
theorem outBlk_apply (x0 : Vec Ideal S256x3 .f32) (x1 : Vec Ideal S3x8192 .f32) (x2 : Vec Ideal S256x1 .i32)
    (x3 : Vec Ideal S1x8192 .i32) (X : SX.Idx → EReal) (b : SB.Idx → BitVec 32) (r : Fin 8192) (p : Fin 256) (q : Fin 8192)
    (h0 : ∀ a : Fin 3, x0 (ix2 p a) = X (ix2 r a))
    (h1 : ∀ (a : Fin 3) (c : Fin 8192), x1 (ix2 a c) = X (ix2 c a))
    (h2 : x2 (ix2 p (0 : Fin 1)) = b (ix1 r))
    (h3 : ∀ c : Fin 8192, x3 (ix2 (0 : Fin 1) c) = b (ix1 c)) :
    outBlk (F := Ideal) x0 x1 x2 x3 (ix2 p q) = kern X b (ix2 r q) := by
  obtain ⟨k, j, rfl⟩ := exists_col q
  have hk1 : k.val < k0_t1_loop.trips := by rw [trips1_eq]; exact k.isLt
  have hk2 : k.val < k0_t2_loop.trips := by rw [trips2_eq]; exact k.isLt
  -- the affinity buffer at the chunk's index
  have hE : View.ld (View.canon (storesE (F := Ideal) (View.ld x0 rX0) (View.ld x0 rX1) (View.ld x0 rX2) x1 k0_t1_loop.trips))
      (rB ⟨k.val, hk2⟩) (ix2 p j) = eK X r (col k j) :=
    (ld_rB _ ⟨k.val, hk2⟩ k.isLt p j).trans
      ((canon_storesE (F := Ideal) (View.ld x0 rX0) (View.ld x0 rX1) (View.ld x0 rX2) x1 ⟨k.val, hk1⟩ p j k0_t1_loop.trips
        (le_refl _) hk1).trans (chunkE_apply x0 x1 X r p h0 h1 ⟨k.val, hk1⟩ j))
  -- the normaliser
  have hS : View.ld (sumsS (F := Ideal) (View.ld x0 rX0) (View.ld x0 rX1) (View.ld x0 rX2) x1 (k0_pay4 (F := Ideal))
      k0_t1_loop.trips) rW (ix2 p 0) = accK X r 8 :=
    (congrFun (ld_rW _) (ix2 p 0)).trans
      ((sumsS_apply x0 x1 X r p h0 h1 k0_t1_loop.trips (le_refl _)).trans (congrArg (accK X r) trips1_eq))
  -- the two labels
  have hL : View.ld x2 rW (ix2 p 0) = b (ix1 r) := (congrFun (ld_rW x2) (ix2 p 0)).trans h2
  have hB : View.ld x3 (rL ⟨k.val, hk2⟩) (ix2 0 j) = b (ix1 (col k j)) :=
    (ld_rL x3 ⟨k.val, hk2⟩ k.isLt j).trans (h3 (col k j))
  unfold outBlk
  refine (canon_storesO (F := Ideal) _ _ _ _ ⟨k.val, hk2⟩ p j k0_t2_loop.trips (le_refl _) hk2).trans ?_
  refine (pay5_apply _ _ _ _ p j).trans ?_
  rw [hE, hS, hL, hB]
  rfl

end Cert.KernelIdeal.BlockValue

end
-- ==== Proof.KIValue.lean ====
/-
  The kernel's result array after the run, as one function of the two argument arrays.

  The four input windows hold, when the region is entered: the coordinate columns (the host's gather, the very term
  the reference computes), their transpose, and the labels as a column and as a row. Grid point t finds rows
  256·t … 256·t + 255 of the coordinate columns and of the label column, and the whole transposed coordinates and
  label row; so what it writes back is block t of `kern` of the coordinate columns and the labels (the block's value
  index by index). The 32 row blocks cover the [8192, 8192] result, so the array ends at that function.
-/
import proofs.«169839_j12945031430844_2_alg».proof.Proof.KIFrame
import proofs.«169839_j12945031430844_2_alg».proof.Proof.RefRun
import proofs.«169839_j12945031430844_2_alg».proof.Proof.RefValue
import proofs.«169839_j12945031430844_2_alg».proof.Proof.KIBlockValue
import proofs.«169839_j12945031430844_2_alg».proof.Proof.Spec
import proofs.«169839_j12945031430844_2_alg».proof.Proof.LibRows
import proofs.«169839_j12945031430844_2_alg».proof.Proof.LibRowBroadcast
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The four input windows' arrays when the region is entered -/

/-- The coordinate columns: the host's gather of the first three columns of `x`, the reference's own term. -/
theorem entry_coords (c : Dev nD) :
    (V m c main_v6 : S8192x3.Idx → EReal) = Cert.RefSide.xyz (m ((c : Thread nD τ).loc main_arg0)) := by
  dsimp only [Gen.V, Gen.hostOps0]; after_results; rfl

/-- Their transpose. -/
theorem entry_coordsT (c : Dev nD) :
    (V m c main_v7 : S3x8192.Idx → EReal)
      = transpose S3x8192 [1, 0] (Cert.RefSide.xyz (m ((c : Thread nD τ).loc main_arg0))) transposes_S8192x3_S3x8192_1_0 := by
  dsimp only [Gen.V, Gen.hostOps0]; after_results; rfl

/-- The labels as a column and as a row. -/
theorem entry_labelCol (c : Dev nD) :
    (V m c main_v8 : S8192x1.Idx → BitVec 32) = shapeCast S8192x1 (m ((c : Thread nD τ).loc main_arg1)) shapeCasts_S8192_S8192x1 := by
  dsimp only [Gen.V, Gen.hostOps0]; after_results; rfl

theorem entry_labelRow (c : Dev nD) :
    (V m c main_v9 : S1x8192.Idx → BitVec 32) = shapeCast S1x8192 (m ((c : Thread nD τ).loc main_arg1)) shapeCasts_S8192_S1x8192 := by
  dsimp only [Gen.V, Gen.hostOps0]; after_results; rfl

/-! ## The blocks a grid point finds -/

/-- Over the 32 grid points: the coordinate block, the label column and the output move down one block of 256 rows per
    point; the transposed coordinates and the label row stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-- Row `p` of point `t`'s block is row `256·t + p` of the array. -/
def rowOf (t : Fin cfg0.N) (p : Fin 256) : Fin 8192 := ⟨256 * t.val + p.val, by have := point_lt t; omega⟩

theorem blk0_apply (c : Dev nD) (t : Fin cfg0.N) (p : Fin 256) (a : Fin 3) :
    iblk m c 0 t (ix2 p a) = Cert.RefSide.xyz (m ((c : Thread nD τ).loc main_arg0)) (ix2 (rowOf t p) a) := by
  show V m c main_v6 (((cfg0.win 0).blk t).view.emb (ix2 p a)) = _
  refine (congrFun (entry_coords m c) _).trans (congrArg _ ?_)
  obtain ⟨e0, e1, -⟩ := idx_facts t
  funext d; apply Fin.ext
  match d with
  | ⟨0, _⟩ => show win0_0.index t (0 : Fin 2) * 256 + 1 * p.val = 256 * t.val + p.val; omega
  | ⟨1, _⟩ => show win0_0.index t (1 : Fin 2) * 3 + 1 * a.val = a.val; omega

theorem blk1_apply (c : Dev nD) (t : Fin cfg0.N) (a : Fin 3) (q : Fin 8192) :
    iblk m c 1 t (ix2 a q) = Cert.RefSide.xyz (m ((c : Thread nD τ).loc main_arg0)) (ix2 q a) := by
  show V m c main_v7 (((cfg0.win 1).blk t).view.emb (ix2 a q)) = _
  have he : ((cfg0.win 1).blk t).view.emb (ix2 a q) = (ix2 a q : S3x8192.Idx) := by
    obtain ⟨-, -, e0, e1, -⟩ := idx_facts t
    funext d; apply Fin.ext
    match d with
    | ⟨0, _⟩ => show win0_1.index t (0 : Fin 2) * 3 + 1 * a.val = a.val; omega
    | ⟨1, _⟩ => show win0_1.index t (1 : Fin 2) * 8192 + 1 * q.val = q.val; omega
  rw [he]
  exact (congrFun (entry_coordsT m c) _).trans (Cert.RefSide.transpose_at _ a q)

theorem blk2_apply (c : Dev nD) (t : Fin cfg0.N) (p : Fin 256) :
    iblk m c 2 t (ix2 p (0 : Fin 1)) = (m ((c : Thread nD τ).loc main_arg1)) (ix1 (rowOf t p)) := by
  show V m c main_v8 (((cfg0.win 2).blk t).view.emb (ix2 p (0 : Fin 1))) = _
  have he : ((cfg0.win 2).blk t).view.emb (ix2 p (0 : Fin 1)) = (ix2 (rowOf t p) (0 : Fin 1) : S8192x1.Idx) := by
    obtain ⟨-, -, -, -, e0, e1, -⟩ := idx_facts t
    funext d; apply Fin.ext
    match d with
    | ⟨0, _⟩ => show win0_2.index t (0 : Fin 2) * 256 + 1 * p.val = 256 * t.val + p.val; omega
    | ⟨1, _⟩ => show win0_2.index t (1 : Fin 2) * 1 + 1 * 0 = 0; omega
  rw [he]
  exact (congrFun (entry_labelCol m c) _).trans (Cert.Rows.cast_col _ _ (rowOf t p))

theorem blk3_apply (c : Dev nD) (t : Fin cfg0.N) (q : Fin 8192) :
    iblk m c 3 t (ix2 (0 : Fin 1) q) = (m ((c : Thread nD τ).loc main_arg1)) (ix1 q) := by
  show V m c main_v9 (((cfg0.win 3).blk t).view.emb (ix2 (0 : Fin 1) q)) = _
  have he : ((cfg0.win 3).blk t).view.emb (ix2 (0 : Fin 1) q) = (ix2 (0 : Fin 1) q : S1x8192.Idx) := by
    obtain ⟨-, -, -, -, -, -, e0, e1, -⟩ := idx_facts t
    funext d; apply Fin.ext
    match d with
    | ⟨0, _⟩ => show win0_3.index t (0 : Fin 2) * 1 + 1 * 0 = 0; omega
    | ⟨1, _⟩ => show win0_3.index t (1 : Fin 2) * 8192 + 1 * q.val = q.val; omega
  rw [he]
  exact (congrFun (entry_labelRow m c) _).trans (Cert.LibRowBroadcast.row_cast _ _ q)

/-! ## What each point writes back, and the array after the run -/

/-- The kernel's result as one function of the two argument arrays. -/
def result (c : Dev nD) : S8192x8192.Idx → EReal := Cert.Affinity.kern (Cert.RefSide.xyz (m ((c : Thread nD τ).loc main_arg0))) (m ((c : Thread nD τ).loc main_arg1))

/-- Point `t` writes back block `t` of that function. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold outsAt0
  funext y
  obtain ⟨p, q, rfl⟩ : ∃ (p : Fin 256) (q : Fin 8192), y = ix2 p q := ⟨y 0, y 1, eq_ix2 y⟩
  show outBlk (iblk m c 0 t) (iblk m c 1 t) (iblk m c 2 t) (iblk m c 3 t) (ix2 p q)
    = result m c (((cfg0.win 4).blk t).view.emb (ix2 p q))
  have he : ((cfg0.win 4).blk t).view.emb (ix2 p q) = (ix2 (rowOf t p) q : S8192x8192.Idx) := by
    obtain ⟨-, -, -, -, -, -, -, -, e0, e1⟩ := idx_facts t
    funext d; apply Fin.ext
    match d with
    | ⟨0, _⟩ => show win0_4.index t (0 : Fin 2) * 256 + 1 * p.val = 256 * t.val + p.val; omega
    | ⟨1, _⟩ => show win0_4.index t (1 : Fin 2) * 8192 + 1 * q.val = q.val; omega
  rw [he]
  exact Cert.KernelIdeal.BlockValue.outBlk_apply _ _ _ _ (Cert.RefSide.xyz (m ((c : Thread nD τ).loc main_arg0))) (m ((c : Thread nD τ).loc main_arg1)) (rowOf t p) p q
    (fun a => blk0_apply m c t p a) (fun a q' => blk1_apply m c t a q') (blk2_apply m c t p) (fun q' => blk3_apply m c t q')

/-- An index of the array is in point `t`'s block iff each coordinate is in the block's range on its axis. -/
theorem mem_blk (t : Fin cfg0.N) (i : S8192x8192.Idx) :
    i ∈ ((cfg0.win 4).blk t).view.set ↔ ∀ a : Fin 2, win0_4.index t a * S256x8192.size a ≤ (i a).val ∧ (i a).val < win0_4.index t a * S256x8192.size a + S256x8192.size a := by
  show i ∈ ((View.whole main_v10).slice (win0_4.rect t)).set ↔ _
  rw [View.set_slice_whole, Rect.mem_set_unit]
  exact Iff.rfl

/-- Row `r` of the array is in the block of point `r / 256`: the 32 blocks cover the array. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  have hN : (i 0).val / 256 < cfg0.N := lt_of_lt_of_eq (by omega : (i 0).val / 256 < 32) N_0.symm
  refine ⟨⟨(i 0).val / 256, hN⟩, flush0_4 _, ?_⟩
  rw [mem_blk]
  obtain ⟨-, -, -, -, -, -, -, -, e0, e1⟩ := idx_facts ⟨(i 0).val / 256, hN⟩
  intro a
  match a with
  | ⟨0, _⟩ =>
    show win0_4.index ⟨(i 0).val / 256, hN⟩ (0 : Fin 2) * 256 ≤ (i 0).val ∧ (i 0).val < win0_4.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, hN⟩ (1 : Fin 2) * 8192 ≤ (i 1).val ∧ (i 1).val < win0_4.index ⟨(i 0).val / 256, hN⟩ (1 : Fin 2) * 8192 + 8192
    rw [e1]; omega

/-- The output array after the run. -/
theorem final (c : Dev nD) : (dats m 0 c).arrAt 4 cfg0.N = result m c :=
  (dats m 0 c).arrAt_eq_of_cover 4 (result m c) (fun t _ => flushed_eq m c t) cover

/-! ## The run, read -/

theorem post4 (r : PUnit × MemSt nD τ sig (Elt Ideal)) (h : Pipeline.FramePost cfgs (dats m) 0 (V m) r) (c : Dev nD) :
    r.2.mem ((c : Thread nD τ).loc main_v10) = (dats m 0 c).arrAt 4 cfg0.N :=
  (h c).1 4

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Every weakly fair execution of the kernel's program ends with its result array at `result` of the two argument
    arrays, and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post4 m r h c).trans (final m c), kept_main_arg0 m r h c, kept_main_arg1 m r h c⟩)
    (run_main m ρ)

end Cert.KernelIdeal.ArrayValue

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.LibRealArrays.lean ====
/-
  Arrays of real numbers inside arrays of extended reals, and the operations that keep them real.

  An array is REAL when every entry is (the coercion of) a real number. Reading an array at computed
  places (a gather, a broadcast) keeps it real; so do entrywise sums, differences and products, and a
  finite sum of entries — in particular the accumulating scatter, whose entry is the operand's entry
  plus a finite sum of update entries. The reciprocal square root keeps an array real where its entries are POSITIVE,
  and then the result is positive too. No operation here looks at which places are read: only at the
  fact that finitely many real numbers are combined.
-/
import Idealize.ShloMosaic.PureOps.Ideal.Laws
import Idealize.ShloMosaic.Lib.ValueIdx

noncomputable section

open scoped BigOperators

open Idealize.ShloMosaic Idealize.ShloMosaic.ValueIdx

namespace Cert.RealArr

/-- Every entry is a real number. -/
def IsReal {s : Shape} (v : s.Idx → EReal) : Prop := ∀ i, ∃ r : ℝ, v i = (r : EReal)

/-- Every entry is a positive real number. -/
def IsPos {s : Shape} (v : s.Idx → EReal) : Prop := ∀ i, ∃ r : ℝ, 0 < r ∧ v i = (r : EReal)

theorem IsPos.isReal {s : Shape} {v : s.Idx → EReal} (h : IsPos v) : IsReal v :=
  fun i => let ⟨r, _, e⟩ := h i; ⟨r, e⟩

/-- A finite sum of real numbers is a real number. -/
theorem sum_real {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert a s ha ih =>
    obtain ⟨ra, ea⟩ := h a (Finset.mem_insert_self a s)
    obtain ⟨rs, es⟩ := ih fun i hi => h i (Finset.mem_insert_of_mem hi)
    exact ⟨ra + rs, by rw [Finset.sum_insert ha, ea, es, EReal.coe_add]⟩

/-- A finite sum of nonnegative reals is a nonnegative real. -/
theorem sum_nonneg_real {ι : Type*} (s : Finset ι) (g : ι → EReal)
    (h : ∀ i ∈ s, ∃ r : ℝ, 0 ≤ r ∧ g i = (r : EReal)) : ∃ r : ℝ, 0 ≤ r ∧ ∑ i ∈ s, g i = (r : EReal) := by
  classical
  induction s using Finset.induction_on with
  | empty => exact ⟨0, le_rfl, by rw [Finset.sum_empty, EReal.coe_zero]⟩
  | insert a s ha ih =>
    obtain ⟨ra, pa, ea⟩ := h a (Finset.mem_insert_self a s)
    obtain ⟨rs, ps, es⟩ := ih fun i hi => h i (Finset.mem_insert_of_mem hi)
    exact ⟨ra + rs, add_nonneg pa ps, by rw [Finset.sum_insert ha, ea, es, EReal.coe_add]⟩

variable {s t : Shape}

/-- An array read at computed places (a gather) stays real. -/
theorem gather {si : Shape} {w : Nat} (d : GatherDims s si t) (x : s.Idx → EReal) (idx : IVec si w)
    (hx : IsReal x) : IsReal (Host.gather d x idx) := fun j => hx _

/-- A broadcast stays real. -/
theorem bcast (dims : Fin s.rank → Fin t.rank) (h : s.BroadcastsInDim t dims) (x : s.Idx → EReal)
    (hx : IsReal x) : IsReal (broadcastInDim t dims h x) := fun j => hx _

theorem bcast_pos (dims : Fin s.rank → Fin t.rank) (h : s.BroadcastsInDim t dims) (x : s.Idx → EReal)
    (hx : IsPos x) : IsPos (broadcastInDim t dims h x) := fun j => hx _

theorem mul (x y : FVec Ideal s .f32) (hx : IsReal x) (hy : IsReal y) : IsReal (mulf x y) := fun i => by
  obtain ⟨a, ea⟩ := hx i
  obtain ⟨b, eb⟩ := hy i
  exact ⟨a * b, by show x i * y i = _; rw [ea, eb, EReal.coe_mul]⟩

theorem add (x y : FVec Ideal s .f32) (hx : IsReal x) (hy : IsReal y) : IsReal (addf x y) := fun i => by
  obtain ⟨a, ea⟩ := hx i
  obtain ⟨b, eb⟩ := hy i
  exact ⟨a + b, by show x i + y i = _; rw [ea, eb, EReal.coe_add]⟩

theorem sub (x y : FVec Ideal s .f32) (hx : IsReal x) (hy : IsReal y) : IsReal (subf x y) := fun i => by
  obtain ⟨a, ea⟩ := hx i
  obtain ⟨b, eb⟩ := hy i
  exact ⟨a - b, by show x i - y i = _; rw [ea, eb, EReal.coe_sub]⟩

/-- A splat of a real constant is real. -/
theorem const (b : BitVec 32) (r : ℝ) (hb : Ideal.ofBits .f32 b = (r : EReal)) :
    IsReal (constant (F := Ideal) s .f32 b) := fun _ => ⟨r, hb⟩

/-- The accumulating scatter of a real array into a real array is real. -/
theorem scatterAdd {si u : Shape} {w : Nat} (d : ScatterDims s si u) (x : FVec Ideal s .f32) (idx : IVec si w)
    (upd : FVec Ideal u .f32) (hx : IsReal x) (hu : IsReal upd) : IsReal (Host.scatterAdd d x idx upd) := fun i => by
  obtain ⟨a, ea⟩ := hx i
  obtain ⟨b, eb⟩ := sum_real (Finset.univ.filter fun j => d.resultIdx? j idx = some i) upd fun j _ => hu j
  exact ⟨a + b, by
    show x i + ∑ j ∈ Finset.univ.filter (fun j => d.resultIdx? j idx = some i), upd j = _
    rw [ea, eb, EReal.coe_add]⟩

/-- The accumulating scatter of nonnegative reals into zeros, plus one, is positive. -/
theorem scatterAdd_count_pos {si u : Shape} {w : Nat} (d : ScatterDims s si u) (x : FVec Ideal s .f32)
    (idx : IVec si w) (upd one : FVec Ideal u .f32) (o : FVec Ideal s .f32)
    (hx : ∀ i, x i = 0) (hu : ∀ j, upd j = 1) (ho : ∀ i, o i = 1) :
    IsPos (addf (Host.scatterAdd d x idx upd) o) := fun i => by
  obtain ⟨b, pb, eb⟩ := sum_nonneg_real (Finset.univ.filter fun j => d.resultIdx? j idx = some i) upd
    fun j _ => ⟨1, zero_le_one, by rw [hu j, EReal.coe_one]⟩
  refine ⟨b + 1, by linarith, ?_⟩
  show (x i + ∑ j ∈ Finset.univ.filter (fun j => d.resultIdx? j idx = some i), upd j) + o i = _
  rw [hx i, ho i, eb, zero_add, EReal.coe_add, EReal.coe_one]

/-- The reciprocal square root of positive reals is positive reals. -/
theorem rsqrt_pos (v : FVec Ideal s .f32) (hv : IsPos v) : IsPos (Host.rsqrt v) := fun i => by
  obtain ⟨r, pr, er⟩ := hv i
  refine ⟨(Real.sqrt r)⁻¹, inv_pos.mpr (Real.sqrt_pos.mpr pr), ?_⟩
  show Ideal.rsqrt (v i) = _
  rw [er, Ideal.rsqrt_coe, if_neg (not_lt.mpr pr.le), if_neg (ne_of_gt pr)]

end Cert.RealArr

end
-- ==== Proof.RefFinite.lean ====
/-
  The coordinate columns are real numbers where the arguments are finite.

  The precondition reduces, by "and" from the bit 1, the comparison bits |x| < +∞ over all entries of the
  six-column argument; if the result is 1, every entry of x is a real number.  The coordinate columns are x
  read at computed places (a gather), so every entry of them is a real number too.
-/
import proofs.«169839_j12945031430844_2_alg».proof.Proof.RefRun
import proofs.«169839_j12945031430844_2_alg».proof.Proof.LibFiniteAll
import proofs.«169839_j12945031430844_2_alg».proof.Proof.LibRealArrays
import proofs.«169839_j12945031430844_2_alg».proof.Pre_finite_inputs

noncomputable section

namespace Cert.RefSide

open Idealize.ShloMosaic Idealize.ShloMosaic.ValueIdx

/-- Under the precondition every entry of the six-column argument is a real number. -/
theorem arg_real [hPre_finite_inputs : Cert.Pre_finite_inputs.Facts]
    (x : FVec Ideal Cert.ReferenceIdeal.S8192x6 .f32) (b : IVec Cert.ReferenceIdeal.S8192 32)
    (h : Cert.Pre_finite_inputs.fn (F := Ideal) x b = fun _ => 1#1) : ∀ i, ∃ r : ℝ, x i = (r : EReal) :=
  Cert.FiniteAll.all_real x Cert.Pre_finite_inputs.Facts.bcast_S_S8192x6
    Cert.Pre_finite_inputs.Facts.reducesTo_S8192x6_S_d0_1 Cert.Pre_finite_inputs.Facts.h_S_ ix0 (congrFun h ix0)

/-- Under the precondition every entry of the coordinate columns is a real number. -/
theorem xyz_real [hPre_finite_inputs : Cert.Pre_finite_inputs.Facts]
    (x : FVec Ideal Cert.ReferenceIdeal.S8192x6 .f32) (b : IVec Cert.ReferenceIdeal.S8192 32)
    (h : Cert.Pre_finite_inputs.fn (F := Ideal) x b = fun _ => 1#1) : ∀ i, ∃ r : ℝ, xyz x i = (r : EReal) := by
  unfold xyz
  exact Cert.RealArr.gather _ x _ (arg_real x b h)

end Cert.RefSide

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.MathWords.lean ====
/-
  The float words of the two programs, as real numbers: 0, 1, 2, -2, -1/2 and 1/4.  Each single-precision
  pattern is a sign, an exponent E and a zero fraction, so its value is ± 2^23 · 2^(E - 127 - 23).
-/
import proofs.«169839_j12945031430844_2_alg».proof.Proof.Spec
import proofs.«169839_j12945031430844_2_alg».proof.Proof.LibIdealReal

noncomputable section

namespace Cert.Affinity

open Idealize.ShloMosaic Idealize.ShloMosaic.ValueIdx

theorem zeroW_eq : zeroW = ((0 : ℝ) : EReal) := by
  rw [EReal.coe_zero]; exact Ideal.ofBits_zero_f32

theorem oneW_eq : oneW = ((1 : ℝ) : EReal) := by
  rw [EReal.coe_one]; exact Cert.IdealReal.ofBits_one_f32

theorem twoW_eq : twoW = ((2 : ℝ) : EReal) := by
  simp [Ideal.ofBits, Ideal.ieee]
  have h : ((8388608 : ℝ) * ((2 : ℝ) ^ 22)⁻¹) = 2 := by norm_num
  exact_mod_cast h

theorem negTwoW_eq : negTwoW = ((-2 : ℝ) : EReal) := by
  simp [Ideal.ofBits, Ideal.ieee]
  have h : ((8388608 : ℝ) * ((2 : ℝ) ^ 22)⁻¹) = 2 := by norm_num
  exact_mod_cast h

theorem negHalfW_eq : negHalfW = ((-(1 / 2) : ℝ) : EReal) := by
  simp [Ideal.ofBits, Ideal.ieee]
  have h : ((8388608 : ℝ) * ((2 : ℝ) ^ 24)⁻¹) = 2⁻¹ := by norm_num
  exact_mod_cast h

theorem quarterW_eq : quarterW = ((1 / 4 : ℝ) : EReal) := by
  simp [Ideal.ofBits, Ideal.ieee]
  have h : ((8388608 : ℝ) * ((2 : ℝ) ^ 25)⁻¹) = 4⁻¹ := by norm_num
  exact_mod_cast h

end Cert.Affinity

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.MathPoint.lean ====
/-
  One entry of the affinity matrix, over an array of real coordinates x : [8192, 3].

  The squared distance of rows r and c is the real number
      dist x r c = ((x r 0 - x c 0)² + (x r 1 - x c 1)²) + (x r 2 - x c 2)²,
  and both ways of computing it give this number: coordinate by coordinate, or expanded as
  (|r|² + |c|²) - 2 · ⟨r, c⟩.  Every term is a real number, so the extended-real operations are the real ones
  and the two expressions differ by ring identities.

  The affinity of a real squared distance d is aff d = exp (exp (max d 0 · (-2))), a real number above 1;
  the two programs spell the inner exponent as max d 0 · (-2) and as ((-1/2) · max d 0) / (1/4).
-/
import proofs.«169839_j12945031430844_2_alg».proof.Proof.MathWords
import proofs.«169839_j12945031430844_2_alg».proof.Proof.LibERealSums
import Mathlib.Analysis.SpecialFunctions.Exp

noncomputable section

namespace Cert.Affinity

open Idealize.ShloMosaic Idealize.ShloMosaic.ValueIdx

/-- The squared distance of two rows of a real coordinate array. -/
def dist (x : Fin 8192 → Fin 3 → ℝ) (r c : Fin 8192) : ℝ :=
  ((x r 0 - x c 0) * (x r 0 - x c 0) + (x r 1 - x c 1) * (x r 1 - x c 1)) + (x r 2 - x c 2) * (x r 2 - x c 2)

/-- The affinity of a real squared distance. -/
def aff (d : ℝ) : ℝ := Real.exp (Real.exp (max d 0 * (-2)))

/-- One entry of the affinity matrix. -/
def entry (x : Fin 8192 → Fin 3 → ℝ) (r c : Fin 8192) : ℝ := aff (dist x r c)

variable (X : SX.Idx → EReal) (x : Fin 8192 → Fin 3 → ℝ)

/-- The distance taken coordinate by coordinate is the real squared distance. -/
theorem distK_eq (hx : ∀ r k, X (ix2 r k) = ((x r k : ℝ) : EReal)) (r c : Fin 8192) :
    distK X r c = ((dist x r c : ℝ) : EReal) := by
  unfold distK dist
  simp only [hx]
  simp only [EReal.coe_add, EReal.coe_mul, EReal.coe_sub]

/-- The expanded distance is the real squared distance. -/
theorem distR_eq (hx : ∀ r k, X (ix2 r k) = ((x r k : ℝ) : EReal)) (r c : Fin 8192) :
    distR X r c = ((dist x r c : ℝ) : EReal) := by
  unfold distR sqR
  rw [zeroW_eq, twoW_eq, Fin.sum_univ_three, Fin.sum_univ_three, Fin.sum_univ_three]
  simp only [hx]
  simp only [← EReal.coe_add, ← EReal.coe_mul, ← EReal.coe_sub]
  refine congrArg Real.toEReal ?_
  unfold dist
  ring

/-- The larger of two reals, taken inside the extended reals, is the real maximum. -/
theorem max_coe_coe (a b : ℝ) : max (a : EReal) (b : EReal) = ((max a b : ℝ) : EReal) :=
  (EReal.coe_strictMono.monotone.map_max).symm

/-- The kernel's affinity at a real squared distance. -/
theorem affK_coe (d : ℝ) : affK (d : EReal) = ((aff d : ℝ) : EReal) := by
  unfold affK aff
  rw [zeroW_eq, negTwoW_eq, max_coe_coe, ← EReal.coe_mul, Ideal.exp_coe, Ideal.exp_coe]

/-- The reference's affinity at a real squared distance: (-1/2 · m) / (1/4) = m · (-2). -/
theorem affR_coe (d : ℝ) : affR (d : EReal) = ((aff d : ℝ) : EReal) := by
  unfold affR aff
  have hq : ((1 / 4 : ℝ)) ≠ 0 := by norm_num
  have hm : (-(1 / 2) * max d 0 / (1 / 4) : ℝ) = max d 0 * (-2) := by ring
  rw [zeroW_eq, negHalfW_eq, quarterW_eq, max_coe_coe, ← EReal.coe_mul,
    Cert.IdealReal.div_coe_coe hq, hm, Ideal.exp_coe, Ideal.exp_coe]

theorem aff_pos (d : ℝ) : 0 < aff d := Real.exp_pos _

theorem one_lt_aff (d : ℝ) : 1 < aff d := Real.one_lt_exp_iff.mpr (Real.exp_pos _)

theorem entry_pos (r c : Fin 8192) : 0 < entry x r c := aff_pos _

/-- The kernel's matrix entry is the real entry. -/
theorem eK_eq (hx : ∀ r k, X (ix2 r k) = ((x r k : ℝ) : EReal)) (r c : Fin 8192) :
    eK X r c = ((entry x r c : ℝ) : EReal) := by
  unfold eK entry
  rw [distK_eq X x hx, affK_coe]

/-- The reference's matrix entry is the real entry. -/
theorem eR_eq (hx : ∀ r k, X (ix2 r k) = ((x r k : ℝ) : EReal)) (r c : Fin 8192) :
    eR X r c = ((entry x r c : ℝ) : EReal) := by
  unfold eR entry
  rw [distR_eq X x hx, affR_coe]

end Cert.Affinity

end
-- ==== Proof.MathSum.lean ====
/-
  The row normaliser, over an array of real coordinates x : [8192, 3].

  Every matrix entry is a real number, so each chunk sum, the accumulation of the eight chunk sums from the
  zero word, and the sum of the whole row from the zero word are real numbers.  The eight consecutive
  chunks of 1024 columns (column 1024·k + j is lane j of chunk k) tile the 8192 columns, so the two
  normalisers are the same real number 0 + Σ_c entry x r c, and it is positive since every entry is.
-/
import proofs.«169839_j12945031430844_2_alg».proof.Proof.MathPoint

noncomputable section

namespace Cert.Affinity

open Idealize.ShloMosaic Idealize.ShloMosaic.ValueIdx

open Finset

variable (X : SX.Idx → EReal) (x : Fin 8192 → Fin 3 → ℝ)

/-- The sum of one row of the real affinity matrix. -/
def rowSum (x : Fin 8192 → Fin 3 → ℝ) (r : Fin 8192) : ℝ := ∑ c : Fin 8192, entry x r c

theorem rowSum_pos (r : Fin 8192) : 0 < rowSum x r :=
  Finset.sum_pos (fun c _ => entry_pos x r c) ⟨⟨0, by norm_num⟩, Finset.mem_univ _⟩

/-- The row sum, chunk by chunk. -/
theorem rowSum_blocks (r : Fin 8192) :
    rowSum x r = ∑ k : Fin 8, ∑ j : Fin 1024, entry x r (col k j) :=
  Cert.LibERealSums.sum_fin_blocks (by norm_num : 8 * 1024 = 8192) col (fun _ _ => rfl) _

/-- One chunk's sum is a real number. -/
theorem chunkK_eq (hx : ∀ r k, X (ix2 r k) = ((x r k : ℝ) : EReal)) (r : Fin 8192) (k : Fin 8) :
    chunkK X r k = ((∑ j : Fin 1024, entry x r (col k j) : ℝ) : EReal) := by
  unfold chunkK
  exact Cert.LibERealSums.sum_eq_coe _ _ _ (fun j _ => eK_eq X x hx r (col k j))

/-- The accumulator after all eight chunks, written out. -/
theorem accK_eight (r : Fin 8192) :
    accK X r 8 = zeroW + chunkK X r 0 + chunkK X r 1 + chunkK X r 2 + chunkK X r 3 + chunkK X r 4
      + chunkK X r 5 + chunkK X r 6 + chunkK X r 7 := rfl

/-- The kernel's normaliser is the real row sum (from zero). -/
theorem accK_eq (hx : ∀ r k, X (ix2 r k) = ((x r k : ℝ) : EReal)) (r : Fin 8192) :
    accK X r 8 = ((0 + rowSum x r : ℝ) : EReal) := by
  rw [accK_eight, zeroW_eq]
  simp only [chunkK_eq X x hx]
  simp only [← EReal.coe_add]
  refine congrArg Real.toEReal ?_
  rw [rowSum_blocks, Fin.sum_univ_eight]
  ring

/-- The reference's normaliser is the real row sum (from zero). -/
theorem sumR_eq (hx : ∀ r k, X (ix2 r k) = ((x r k : ℝ) : EReal)) (r : Fin 8192) :
    sumR X r = ((0 + rowSum x r : ℝ) : EReal) := by
  unfold sumR rowSum
  rw [zeroW_eq, EReal.coe_add]
  refine congrArg (fun t => ((0 : ℝ) : EReal) + t) ?_
  exact Cert.LibERealSums.sum_eq_coe _ _ _ (fun c _ => eR_eq X x hx r c)

end Cert.Affinity

end
-- ==== Proof.MathBridge.lean ====
/-
  The two index functions agree on every array of real coordinates.

  With real witnesses x of the coordinates, a weight of the kernel is entry · (1 / S) and a weight of the
  reference is entry / S, for the same real entry and the same real normaliser S = 0 + Σ_c entry x r c > 0.
  Division by a nonzero real is the real division, so both are the real number entry / S.  The two results
  then keep equal weights under the same threshold and label test.
-/
import proofs.«169839_j12945031430844_2_alg».proof.Proof.MathSum

noncomputable section

namespace Cert.Affinity

open Idealize.ShloMosaic Idealize.ShloMosaic.ValueIdx

variable (X : SX.Idx → EReal) (x : Fin 8192 → Fin 3 → ℝ)

/-- The kernel's weight and the reference's are the same real number. -/
theorem weightK_eq_weightR (hx : ∀ r k, X (ix2 r k) = ((x r k : ℝ) : EReal)) (r c : Fin 8192) :
    weightK X r c = weightR X r c := by
  unfold weightK weightR
  have hS : (0 + rowSum x r : ℝ) ≠ 0 := by
    have h := rowSum_pos x r
    rw [zero_add]
    exact ne_of_gt h
  rw [accK_eq X x hx, sumR_eq X x hx, eK_eq X x hx, eR_eq X x hx, oneW_eq,
    Cert.IdealReal.div_coe_coe hS, Cert.IdealReal.div_coe_coe hS, ← EReal.coe_mul]
  refine congrArg Real.toEReal ?_
  rw [mul_one_div]

/-- On real coordinates the kernel's index function is the reference's. -/
theorem kern_eq_refn (X : SX.Idx → EReal) (b : SB.Idx → BitVec 32) (hX : ∀ i, ∃ r : ℝ, X i = (r : EReal)) :
    kern X b = refn X b := by
  choose f hf using hX
  funext i
  unfold kern refn
  exact congrArg (fun w => keep w (b (ix1 (i 0))) (b (ix1 (i 1))))
    (weightK_eq_weightR X (fun r k => f (ix2 r k)) (fun r k => hf (ix2 r k)) (i 0) (i 1))

end Cert.Affinity

end
-- ==== Proof.lean ====
/-
  The dense affinity graph of 8192 points: for rows r, columns c,
      w(r,c) = e(r,c) / Σ_c' e(r,c'),   e(r,c) = exp (exp (−2 · max (|x_r − x_c|², 0))),
  kept where w(r,c) exceeds the threshold and the two points carry the same label, 0 elsewhere — over the first three
  columns of x.

  The kernel takes |x_r − x_c|² coordinate by coordinate, accumulates each row's normaliser over eight column chunks
  and multiplies by its reciprocal; the reference expands the square as |x_r|² + |x_c|² − 2 x_r·x_c, scales by
  (−1/2 ·)/(1/4), sums the whole row and divides. On the extended reals the two agree when the coordinates are real
  numbers (the expansion of the square, and e · (1/S) = e / S for a real S ≥ 8192, need it): that is where the
  precondition is used. The coordinate columns themselves are one and the same term of x in the two programs and are
  never evaluated.

  The three frames: the two kernel programs run by the frame theorem over the body's triple (the body's two counted
  loops are passed by their invariants, and the output block ends at a function of the four input blocks whatever the
  scratch buffers held); the reference is a straight line of host operations.
-/
import proofs.«169839_j12945031430844_2_alg».proof.Defs
import proofs.«169839_j12945031430844_2_alg».proof.Proof.Gen.Kernel
import proofs.«169839_j12945031430844_2_alg».proof.Proof.Gen.KernelIdeal
import proofs.«169839_j12945031430844_2_alg».proof.Proof.Gen.ReferenceIdeal
import proofs.«169839_j12945031430844_2_alg».proof.Proof.Gen.Pre_finite_inputs
import proofs.«169839_j12945031430844_2_alg».proof.Proof.KFrame
import proofs.«169839_j12945031430844_2_alg».proof.Proof.KIValue
import proofs.«169839_j12945031430844_2_alg».proof.Proof.RefRun
import proofs.«169839_j12945031430844_2_alg».proof.Proof.RefValue
import proofs.«169839_j12945031430844_2_alg».proof.Proof.RefFinite
import proofs.«169839_j12945031430844_2_alg».proof.Proof.MathBridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.RefSide.run m ρ)

/-- The ideal pass rewrote nothing. -/
theorem preserves : Cert.preserves_Kernel_KernelIdeal := trivial

/-- From memories agreeing on the arguments both programs end at one array: the kernel at `kern` of the coordinate
    columns and the labels, the reference at `refn` of the same, and the two functions agree on real coordinates. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩) (Cert.RefSide.run m' ρ')
  rw [(hagree c).1, (hagree c).2, Cert.RefSide.refTerm_eq]
  exact (Cert.Affinity.kern_eq_refn _ _ (Cert.RefSide.xyz_real _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
